-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S22016x4096 : Shape := ⟨2, ![22016, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S22016x4096 : S_.BroadcastsInDim S22016x4096 (![] : Fin 0 → Fin S22016x4096.rank)
  reducesTo_S22016x4096_S_d0_1 : S22016x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S2x2048x4096 .f32) (main_arg1 : FVec F S22016x4096 .f32) (main_arg2 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S22016x4096 .f32 := Host.absf main_arg1
  let main_cst_0 : FVec F S_ .f32 := constant S_ .f32 0x7F800000#32
  let main_v5 : FVec F S22016x4096 .f32 := broadcastInDim S22016x4096 ![] bcast_S_S22016x4096 main_cst_0
  let main_v6 : IVec S22016x4096 1 := cmpf .olt main_v4 main_v5
  let main_c_1 : IVec S_ 1 := constantI S_ 1 1#1
  let main_v7 : IVec S_ 1 := (fun x v => Host.reduce IntOp.andi x v reducesTo_S22016x4096_S_d0_1 h_S_) main_v6 main_c_1
  let main_v8 : IVec S_ 1 := andi main_v3 main_v7
  let main_v9 : FVec F S4096x11008 .f32 := Host.absf main_arg2
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  main_v13
-- ==== Kernel.lean ====
abbrev S2x2048x4096 : Shape := ⟨3, ![2, 2048, 4096]⟩
abbrev S22016x4096 : Shape := ⟨2, ![22016, 4096]⟩
abbrev S4096x11008 : Shape := ⟨2, ![4096, 11008]⟩
abbrev S4096x4096 : Shape := ⟨2, ![4096, 4096]⟩
abbrev S11008x4096 : Shape := ⟨2, ![11008, 4096]⟩
abbrev S_ : Shape := ⟨0, ![]⟩
abbrev S11264x4096 : Shape := ⟨2, ![11264, 4096]⟩
abbrev S4096x11264 : Shape := ⟨2, ![4096, 11264]⟩
abbrev S1024x1024 : Shape := ⟨2, ![1024, 1024]⟩
abbrev S1024x512 : Shape := ⟨2, ![1024, 512]⟩

abbrev nBuf : Space → Nat
  | .hbm => 22
  | .vmem => 17
  | .smem => 0
  | _ => 0

abbrev bufTy : (tb : Table) → Fin (tcTables nBuf tb) → BufTy
  | .hbm, ⟨0, _⟩ => ⟨S2x2048x4096, .f32⟩
  | .hbm, ⟨1, _⟩ => ⟨S22016x4096, .f32⟩
  | .hbm, ⟨2, _⟩ => ⟨S4096x11008, .f32⟩
  | .hbm, ⟨3, _⟩ => ⟨S4096x4096, .f32⟩
  | .hbm, ⟨4, _⟩ => ⟨S4096x4096, .bf16⟩
  | .hbm, ⟨5, _⟩ => ⟨S11008x4096, .f32⟩
  | .hbm, ⟨6, _⟩ => ⟨S11008x4096, .bf16⟩
  | .hbm, ⟨7, _⟩ => ⟨S11008x4096, .f32⟩
  | .hbm, ⟨8, _⟩ => ⟨S11008x4096, .bf16⟩
  | .hbm, ⟨9, _⟩ => ⟨S_, .i32⟩
  | .hbm, ⟨10, _⟩ => ⟨S_, .bf16⟩
  | .hbm, ⟨11, _⟩ => ⟨S11264x4096, .bf16⟩
  | .hbm, ⟨12, _⟩ => ⟨S_, .i32⟩
  | .hbm, ⟨13, _⟩ => ⟨S_, .bf16⟩
  | .hbm, ⟨14, _⟩ => ⟨S11264x4096, .bf16⟩
  | .hbm, ⟨15, _⟩ => ⟨S4096x11008, .bf16⟩
  | .hbm, ⟨16, _⟩ => ⟨S_, .i32⟩
  | .hbm, ⟨17, _⟩ => ⟨S_, .bf16⟩
  | .hbm, ⟨18, _⟩ => ⟨S4096x11264, .bf16⟩
  | .hbm, ⟨19, _⟩ => ⟨S4096x11264, .bf16⟩
  | .hbm, ⟨20, _⟩ => ⟨S4096x4096, .f32⟩
  | .hbm, ⟨21, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 22], ![false, false, false]⟩

def k1_cond2 (i : grid1.Coords) : BitVec 1 :=
  let arg2 : BitVec 32 := BitVec.ofNat 32 (i 2).val
  let c21_i32 : BitVec 32 := 21#32
  let v13 : BitVec 1 := Scalar.cmpi .eq arg2 c21_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x4096_S4096x4096 : S2x2048x4096.ShapeCasts S4096x4096
  bitsLt_bf16_f32 : FTy.bits .bf16 < FTy.bits .f32
  slices_S22016x4096_S11008x4096_0_0 : S22016x4096.Slices ![0, 0] S11008x4096
  slices_S22016x4096_S11008x4096_11008_0 : S22016x4096.Slices ![11008, 0] S11008x4096
  pads_S11008x4096_S11264x4096_02560_000 : S11008x4096.Pads (![0, 0] : Fin 2 → Nat) ![256, 0] ![0, 0] S11264x4096
  h_S_ : 0 < S_.numel
  pads_S4096x11008_S4096x11264_000_02560 : S4096x11008.Pads (![0, 0] : Fin 2 → Nat) ![0, 256] ![0, 0] S4096x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S4096x4096_S2x2048x4096 : S4096x4096.ShapeCasts S2x2048x4096
  dot_S1024x1024_S1024x1024_S1024x1024_1_1_0_0_n_n_wf : DotDims.WF S1024x1024 S1024x1024 S1024x1024 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S11264x4096.size a
  hwx0_1 : ∀ i : grid0.Coords, EltTy.bits .bf16 = 32 ∨ (Rect.block (s := S11264x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S11264x4096.size a
  hwx0_2 : ∀ i : grid0.Coords, EltTy.bits .bf16 = 32 ∨ (Rect.block (s := S11264x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x11264.size a
  hwx0_3 : ∀ i : grid0.Coords, EltTy.bits .bf16 = 32 ∨ (Rect.block (s := S4096x11264) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x11264.size a
  hwx1_0 : ∀ i : grid1.Coords, EltTy.bits .bf16 = 32 ∨ (Rect.block (s := S4096x11264) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x11264.size a
  hwx1_1 : ∀ i : grid1.Coords, EltTy.bits .bf16 = 32 ∨ (Rect.block (s := S4096x11264) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S22016x4096 : Shape := ⟨2, ![22016, 4096]⟩
abbrev S4096x11008 : Shape := ⟨2, ![4096, 11008]⟩
abbrev S2x2048x22016 : Shape := ⟨3, ![2, 2048, 22016]⟩
abbrev S2x2048x11008 : Shape := ⟨3, ![2, 2048, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S22016x4096, .f32⟩
  | .hbm, ⟨2, _⟩ => ⟨S4096x11008, .f32⟩
  | .hbm, ⟨3, _⟩ => ⟨S2x2048x22016, .f32⟩
  | .hbm, ⟨4, _⟩ => ⟨S2x2048x11008, .f32⟩
  | .hbm, ⟨5, _⟩ => ⟨S2x2048x11008, .f32⟩
  | .hbm, ⟨6, _⟩ => ⟨S2x2048x11008, .f32⟩
  | .hbm, ⟨7, _⟩ => ⟨S_, .f32⟩
  | .hbm, ⟨8, _⟩ => ⟨S2x2048x11008, .f32⟩
  | .hbm, ⟨9, _⟩ => ⟨S2x2048x11008, .f32⟩
  | .hbm, ⟨10, _⟩ => ⟨S_, .f32⟩
  | .hbm, ⟨11, _⟩ => ⟨S2x2048x11008, .f32⟩
  | .hbm, ⟨12, _⟩ => ⟨S2x2048x11008, .f32⟩
  | .hbm, ⟨13, _⟩ => ⟨S2x2048x11008, .f32⟩
  | .hbm, ⟨14, _⟩ => ⟨S2x2048x11008, .f32⟩
  | .hbm, ⟨15, _⟩ => ⟨S2x2048x11008, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S2x2048x22016_S2x2048x11008_0_0_0 : S2x2048x22016.Slices ![0, 0, 0] S2x2048x11008
  bcast_S_S2x2048x11008 : S_.BroadcastsInDim S2x2048x11008 (![] : Fin 0 → Fin S2x2048x11008.rank)
  slices_S2x2048x22016_S2x2048x11008_0_0_11008 : S2x2048x22016.Slices ![0, 0, 11008] S2x2048x11008
  dot_S2x2048x4096_S22016x4096_S2x2048x22016_2_1_01_0_n_n_wf : DotDims.WF S2x2048x4096 S22016x4096 S2x2048x22016 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S22016x4096_S2x2048x22016_2_1_01_0_n_n : DotDims S2x2048x4096 S22016x4096 S2x2048x22016 where
  lhsContracting := [2]
  rhsContracting := [1]
  lhsNonContracting := [0, 1]
  rhsNonContracting := [0]
  lhsBatch := []
  rhsBatch := []
  wf := dot_S2x2048x4096_S22016x4096_S2x2048x22016_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.K.Body0Defs.lean ====
/-
  The gate/up kernel's two control conditions, shared by the three cases of its body.

  The body clears its accumulators at the first step along the contraction axis and writes the output block at the
  last one; the two conditions below are the tests it makes, spelt as the printed program spells them.
-/
import proofs.«112804_j30425548325397_2_alg».proof.Proof.Gen.Kernel.Launch
import proofs.«112804_j30425548325397_2_alg».proof.Proof.Gen.Kernel.Skeleton
import proofs.«112804_j30425548325397_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first step along the contraction axis: the accumulators are cleared before use. -/
abbrev cond0_0 (i : grid0.Coords) : Prop := (Scalar.cmpi .ne (Scalar.extui (Scalar.cmpi .eq (BitVec.ofNat 32 (i 2).val) 0#32)) 0#32) = 1#1
/-- The last step along the contraction axis: the output block is written. -/
abbrev cond0_1 (i : grid0.Coords) : Prop := k0_cond2 i = 1#1
theorem hz0 : (![0, 0] : Fin 2 → Nat) = fun _ => 0 := by funext a; fin_cases a <;> rfl

end Cert.Kernel.Hand

end
-- ==== Proof.K.Body0First.lean ====
/-
  The gate/up kernel's body at the first step of the contraction axis: both accumulators are cleared, whatever they
  held, and then gain their products; the output block is not touched.
-/
import proofs.«112804_j30425548325397_2_alg».proof.Proof.K.Body0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first step: both accumulators are cleared, then gain their products; the output block is left as found. -/
theorem run0_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : cond0_0 i) (hc1 : ¬cond0_1 i)
    (x0 x1 x2 : Vec F S1024x1024 .bf16) (d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d ∗ (∃ s, owns (c : Thread nD τ) arg7 fullShare s) ∗ (∃ s, owns (c : Thread nD τ) arg8 fullShare s)
        ∗ (iprop(owns (c : Thread nD τ) arg3 fullShare x0 ∗ owns (c : Thread nD τ) arg4 fullShare x1 ∗ owns (c : Thread nD τ) arg5 fullShare x2 ∗ owns (c : Thread nD τ) arg6 fullShare d ∗ owns (c : Thread nD τ) arg7 fullShare (k0_pay4 x0 x1 (k0_pay1 (F := F))) ∗ owns (c : Thread nD τ) arg8 fullShare (k0_pay5 x0 x2 (k0_pay2 (F := F)))) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%fd, %hfd, HD⟩, ⟨%s0, %fs0, %hfs0, HS0⟩, ⟨%s1, %fs1, %hfs1, HS1⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HD]
  · iexists _; isplitr; · ipureintro; exact hfd
    iexact HD
  isplitl [HS0]
  · iexists _; isplitr
    swap; · iexact HS0
    ipureintro
    rw [View.read_writes_eq_canon _ _ _ (fun y => ⟨_, List.mem_cons.mpr (Or.inl rfl), View.mem_set_unit_zero hz0 inb_S1024x1024_S1024x1024_0_0 y⟩), View.canon_cons_unit_zero hz0]
    sl_unfold_words
    rw [View.readCov_unit_zero (S := S1024x1024) arg7.view hz0 inb_S1024x1024_S1024x1024_0_0]
    simp only [View.readAt_eq_ld, Memref.IsWhole.read_unread, View.ld_unit_zero (S := S1024x1024) hz0]
  iexists _; isplitr
  swap; · iexact HS1
  ipureintro
  rw [View.read_writes_eq_canon _ _ _ (fun y => ⟨_, List.mem_cons.mpr (Or.inl rfl), View.mem_set_unit_zero hz0 inb_S1024x1024_S1024x1024_0_0 y⟩), View.canon_cons_unit_zero hz0]
  sl_unfold_words
  rw [View.readCov_unit_zero (S := S1024x1024) arg8.view hz0 inb_S1024x1024_S1024x1024_0_0]
  simp only [View.readAt_eq_ld, Memref.IsWhole.read_unread, View.ld_unit_zero (S := S1024x1024) hz0]

end Cert.Kernel.Hand

end
-- ==== Proof.K.Body0Mid.lean ====
/-
  The gate/up kernel's body at a middle step of the contraction axis: each accumulator gains the product of the token
  block with its weight block, and the output block is not touched.
-/
import proofs.«112804_j30425548325397_2_alg».proof.Proof.K.Body0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A middle step: both accumulators gain their products; the output block is left as found. -/
theorem run0_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : ¬cond0_1 i)
    (x0 x1 x2 : Vec F S1024x1024 .bf16) (d : Vec F S1024x1024 .bf16) (s0 s1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2 ∗ owns (c : Thread nD τ) arg6 fullShare d ∗ owns (c : Thread nD τ) arg7 fullShare (k0_pay4 x0 x1 s0) ∗ owns (c : Thread nD τ) arg8 fullShare (k0_pay5 x0 x2 s1)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%fd, %hfd, HD⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HD]
  · iexists _; isplitr; · ipureintro; exact hfd
    iexact HD
  isplitl [HS0]
  · iexists _; isplitr
    swap; · iexact HS0
    ipureintro
    rw [View.read_writes_eq_canon _ _ _ (fun y => ⟨_, List.mem_singleton_self _, View.mem_set_unit_zero hz0 inb_S1024x1024_S1024x1024_0_0 y⟩), View.canon_unit_zero hz0]
    simp only [View.readAt_eq_ld, Memref.IsWhole.read_unread, View.ld_unit_zero (S := S1024x1024) hz0]
  iexists _; isplitr
  swap; · iexact HS1
  ipureintro
  rw [View.read_writes_eq_canon _ _ _ (fun y => ⟨_, List.mem_singleton_self _, View.mem_set_unit_zero hz0 inb_S1024x1024_S1024x1024_0_0 y⟩), View.canon_unit_zero hz0]
  simp only [View.readAt_eq_ld, Memref.IsWhole.read_unread, View.ld_unit_zero (S := S1024x1024) hz0]

end Cert.Kernel.Hand

end
-- ==== Proof.K.Body0Last.lean ====
/-
  The gate/up kernel's body at the last step of the contraction axis: each accumulator gains its product, and the
  output block receives `silu(gate) · up` of the two finished accumulators, rounded to sixteen bits; what the output
  block held before does not matter.
-/
import proofs.«112804_j30425548325397_2_alg».proof.Proof.K.Body0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last step: both accumulators gain their products, and the output block receives `silu(gate) · up` of the two
    finished accumulators, rounded to sixteen bits. -/
theorem run0_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : cond0_1 i)
    (x0 x1 x2 : Vec F S1024x1024 .bf16) (s0 s1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2 ∗ owns (c : Thread nD τ) arg6 fullShare (k0_pay6 (k0_pay4 x0 x1 s0) (k0_pay5 x0 x2 s1)) ∗ owns (c : Thread nD τ) arg7 fullShare (k0_pay4 x0 x1 s0) ∗ owns (c : Thread nD τ) arg8 fullShare (k0_pay5 x0 x2 s1)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d, %fd, %hfd, HD⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HD]
  · iexists _; isplitr
    swap; · iexact HD
    ipureintro
    rw [View.read_writes_eq_canon _ _ _ (fun y => ⟨_, List.mem_singleton_self _, View.mem_set_unit_zero hz0 inb_S1024x1024_S1024x1024_0_0 y⟩), View.canon_unit_zero hz0]
    sl_unfold_words
    rw [View.readCov_unit_zero (S := S1024x1024) arg7.view hz0 inb_S1024x1024_S1024x1024_0_0, View.readCov_unit_zero (S := S1024x1024) arg8.view hz0 inb_S1024x1024_S1024x1024_0_0]
    simp only [View.readAt_eq_ld, Memref.IsWhole.read_unread, View.ld_unit_zero (S := S1024x1024) hz0]
  isplitl [HS0]
  · iexists _; isplitr
    swap; · iexact HS0
    ipureintro
    sl_unfold_words
    rw [View.read_writes_eq_canon _ _ _ (fun y => ⟨_, List.mem_singleton_self _, View.mem_set_unit_zero hz0 inb_S1024x1024_S1024x1024_0_0 y⟩), View.canon_unit_zero hz0]
    simp only [View.readAt_eq_ld, Memref.IsWhole.read_unread, View.ld_unit_zero (S := S1024x1024) hz0]
  iexists _; isplitr
  swap; · iexact HS1
  ipureintro
  sl_unfold_words
  rw [View.read_writes_eq_canon _ _ _ (fun y => ⟨_, List.mem_singleton_self _, View.mem_set_unit_zero hz0 inb_S1024x1024_S1024x1024_0_0 y⟩), View.canon_unit_zero hz0]
  simp only [View.readAt_eq_ld, Memref.IsWhole.read_unread, View.ld_unit_zero (S := S1024x1024) hz0]

end Cert.Kernel.Hand

end
-- ==== Proof.K.Body0.lean ====
/-
  The body of the gate/up kernel, run symbolically at one grid point, in its three cases (first, middle and last step
  along the contraction axis), each in a module of its own.
-/
import proofs.«112804_j30425548325397_2_alg».proof.Proof.K.Body0First
import proofs.«112804_j30425548325397_2_alg».proof.Proof.K.Body0Mid
import proofs.«112804_j30425548325397_2_alg».proof.Proof.K.Body0Last
-- ==== Proof.K.Acc.lean ====
/-
  What the two tiled kernels keep between grid points, as functions of the arrays each region is entered with.

  Region 0 walks the grid (m, n, k) ∈ 4 × 11 × 4, k fastest, with two accumulators: at k = 0 they restart from zero,
  at every point the products of the point's token block with its gate block and with its up block are added,
  and at k = 3 the gated product of the two accumulators is the block (m, n) of the hidden array.
  Region 1 walks (m, n, k) ∈ 4 × 4 × 22 with one accumulator over the 22 tiles of the hidden axis; at k = 21 the
  accumulator is block (m, n) of the result.
-/
import proofs.«112804_j30425548325397_2_alg».proof.Proof.Gen.Kernel.Launch
import proofs.«112804_j30425548325397_2_alg».proof.Proof.Gen.Kernel.Skeleton
import proofs.«112804_j30425548325397_2_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

-- the contents of the core's buffers when a region is entered: a parameter, fixed by the run
variable (V : (c : Dev nD) → (b : Ref sig .tc) → Buf (Elt F) ((c : Thread nD τ).loc b))

/-- Window `w` of region 0 at point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's gate and up accumulators after point `n`: restarted from the zero block at the points ≡ 0 (mod 4),
    otherwise what the point before left, plus this point's two products. -/
def acc0 (c : Dev nD) : (n : ℕ) → n < cfg0.N → Vec F S1024x1024 .f32 × Vec F S1024x1024 .f32
  | 0, hn => (k0_pay4 (iblk0 V c 0 ⟨0, hn⟩) (iblk0 V c 1 ⟨0, hn⟩) (k0_pay1 (F := F)),
      k0_pay5 (iblk0 V c 0 ⟨0, hn⟩) (iblk0 V c 2 ⟨0, hn⟩) (k0_pay2 (F := F)))
  | n + 1, hn =>
    if (n + 1) % 4 = 0 then
      (k0_pay4 (iblk0 V c 0 ⟨n + 1, hn⟩) (iblk0 V c 1 ⟨n + 1, hn⟩) (k0_pay1 (F := F)),
        k0_pay5 (iblk0 V c 0 ⟨n + 1, hn⟩) (iblk0 V c 2 ⟨n + 1, hn⟩) (k0_pay2 (F := F)))
    else
      (k0_pay4 (iblk0 V c 0 ⟨n + 1, hn⟩) (iblk0 V c 1 ⟨n + 1, hn⟩) (acc0 c n (Nat.lt_of_succ_lt hn)).1,
        k0_pay5 (iblk0 V c 0 ⟨n + 1, hn⟩) (iblk0 V c 2 ⟨n + 1, hn⟩) (acc0 c n (Nat.lt_of_succ_lt hn)).2)

/-- The hidden block region 0 stores at a point ≡ 3 (mod 4): the gated product of the accumulators. -/
def hblk0 (c : Dev nD) (t : Fin cfg0.N) : Vec F S1024x1024 .bf16 :=
  k0_pay6 (acc0 V c t.val t.isLt).1 (acc0 V c t.val t.isLt).2

/-- Region 1's accumulator after point `n`: restarted at the points ≡ 0 (mod 22), otherwise carried. -/
def acc1 (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 22 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- The result block region 1 stores at a point ≡ 21 (mod 22): the accumulator itself. -/
def oblk1 (c : Dev nD) (t : Fin cfg1.N) : Vec F S1024x1024 .f32 := acc1 V c t.val t.isLt

theorem acc0_reset (c : Dev nD) (t : Fin cfg0.N) (h : t.val % 4 = 0) :
    acc0 V c t.val t.isLt = (k0_pay4 (iblk0 V c 0 t) (iblk0 V c 1 t) (k0_pay1 (F := F)),
      k0_pay5 (iblk0 V c 0 t) (iblk0 V c 2 t) (k0_pay2 (F := F))) := by
  obtain ⟨n, hn⟩ := t
  cases n with
  | zero => rfl
  | succ n => exact (if_pos h).trans rfl

theorem acc0_step (c : Dev nD) (t : Fin cfg0.N) (h : ¬ t.val % 4 = 0) :
    acc0 V c t.val t.isLt = (k0_pay4 (iblk0 V c 0 t) (iblk0 V c 1 t) (acc0 V c (t.val - 1) (Nat.lt_of_le_of_lt (Nat.sub_le _ _) t.isLt)).1,
      k0_pay5 (iblk0 V c 0 t) (iblk0 V c 2 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

theorem acc1_reset (c : Dev nD) (t : Fin cfg1.N) (h : t.val % 22 = 0) :
    acc1 V c t.val t.isLt = k1_pay2 (iblk1 V c 0 t) (iblk1 V c 1 t) (k1_pay1 (F := F)) := by
  obtain ⟨n, hn⟩ := t
  cases n with
  | zero => rfl
  | succ n => exact (if_pos h).trans rfl

theorem acc1_step (c : Dev nD) (t : Fin cfg1.N) (h : ¬ t.val % 22 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

end Cert.Kernel.Hand

end
-- ==== Proof.K.Frame0.lean ====
import proofs.«112804_j30425548325397_2_alg».proof.Proof.Gen.Kernel.Launch
import proofs.«112804_j30425548325397_2_alg».proof.Proof.Gen.Kernel.Skeleton
import proofs.«112804_j30425548325397_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.K.Body0
import proofs.«112804_j30425548325397_2_alg».proof.Proof.K.Acc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (gate and up projections): the invariant between grid points, the proof data, the body obligation

The grid is (m, n, k) ∈ 4 × 11 × 4, k fastest. Between two points the two accumulators' buffers hold `acc0` of the
point just run; before the first point they hold anything, as every other buffer no window stages does. The output
block is stored where k = 3 and not touched elsewhere. -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x1024 .bf16 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1024x1024 .bf16 := win0_3.stage (cfg0.slots t 3)
abbrev scM0_0 : Memref sig .tc .vmem S1024x1024 .f32 := Memref.whole cc0_scratch0
abbrev scM0_1 : Memref sig .tc .vmem S1024x1024 .f32 := Memref.whole cc0_scratch1

/-- The core's scoped buffers that region 0 does not stage, with the two accumulators' singled out. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, owns_whole]; try rfl

/-- Everything of that invariant but the two accumulators. -/
def keep0 (c : Dev nD) : sProp 𝕄 :=
  iprop(iprop((∃ d, owns (c : Thread nD τ) scM0_0 fullShare d) ∗ (∃ d, owns (c : Thread nD τ) scM0_1 fullShare d)) -∗ Pipeline.ΦA spec0 c)

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ keep0 (F := F) c) := by
  unfold keep0; rw [PhiA0_eq]
  iintro ⟨⟨HS0, HS1, H1, H2, H3, H4, H5, H6, H7⟩, Hg⟩
  isplitl [HS0]; · iexact HS0
  isplitl [HS1]; · iexact HS1
  iintro ⟨HS0, HS1⟩
  isplitr [Hg]
  · isplitl [HS0]; · iexact HS0
    isplitl [HS1]; · iexact HS1
    isplitl [H1]; · iexact H1
    isplitl [H2]; · iexact H2
    isplitl [H3]; · iexact H3
    isplitl [H4]; · iexact H4
    isplitl [H5]; · iexact H5
    isplitl [H6]; · iexact H6
    iexact H7
  · iexact Hg

/-- The invariant before position `n`. -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2 ∗ keep0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2 ∗ keep0 (F := F) c) := rfl
theorem PhiS0_pos (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2 ∗ keep0 (F := F) c) := by
  cases n with
  | zero => exact absurd rfl hz
  | succ n => rfl

theorem PhiS0_any (c : Dev nD) (n : ℕ) (h : n ≤ cfg0.N) :
    PhiS0 V c n h ⊢ iprop((∃ s, owns (c : Thread nD τ) scM0_0 fullShare s) ∗ (∃ s, owns (c : Thread nD τ) scM0_1 fullShare s) ∗ keep0 (F := F) c) := by
  cases n with
  | zero => exact PhiA0_split c
  | succ n =>
    rw [PhiS0_succ]
    iintro ⟨HS0, HS1, Hk⟩
    isplitl [HS0]; · iexists _; iexact HS0
    isplitl [HS1]; · iexists _; iexact HS1
    iexact Hk

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hblk0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = hblk0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: which of the three cases the point is in is read off its position in the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 176 := lt_of_lt_of_eq t.isLt (show cfg0.N = 176 from N_0)
  by_cases h1 : t.val % 4 = 3
  · have h0 : ¬ t.val % 4 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    unfold hblk0
    rw [acc0_step V c t h0, PhiS0_pos V c _ _ hz]
    dsimp only
    iintro ⟨⟨HS0, HS1, Hkeep⟩, Ho, ⟨%d0, H0⟩, ⟨%d1, H1⟩, ⟨%d2, H2⟩, ⟨%d3, H3⟩⟩
    iapply (run0_last c (grid0.coords t) _ _ _ _ _ _ _ _ _ _ _ _ (fun h => h0 ((hcond0_0 t).mp h)) ((hcond0_1 t).mpr h1) (iblk0 V c 0 t) (iblk0 V c 1 t) (iblk0 V c 2 t) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hkeep]
    · isplitl [HS0]; · iexact HS0
      isplitl [HS1]; · iexact HS1
      iexact Hkeep
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 4 = 0
    · rw [acc0_reset V c t h0]
      dsimp only
      iintro ⟨HΦ, Ho, ⟨%d0, H0⟩, ⟨%d1, H1⟩, ⟨%d2, H2⟩, ⟨%d3, H3⟩⟩
      ihave HΦ' := (PhiS0_any V c _ _) $$ HΦ
      icases HΦ' with ⟨HS0, HS1, Hkeep⟩
      iapply (run0_first c (grid0.coords t) _ _ _ _ _ _ _ _ _ _ _ _ ((hcond0_0 t).mpr h0) (fun h => h1 ((hcond0_1 t).mp h)) (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hkeep]
      · isplitl [HS0]; · iexact HS0
        isplitl [HS1]; · iexact HS1
        iexact Hkeep
      isplitl [Ho]; · iexact Ho
      isplitl [H0]; · iexact H0
      isplitl [H1]; · iexact H1
      isplitl [H2]; · iexact H2
      iexists _; iexact H3
    · have hz : t.val ≠ 0 := fun e => h0 (by rw [e])
      rw [acc0_step V c t h0, PhiS0_pos V c _ _ hz]
      dsimp only
      iintro ⟨⟨HS0, HS1, Hkeep⟩, Ho, ⟨%d0, H0⟩, ⟨%d1, H1⟩, ⟨%d2, H2⟩, ⟨%d3, H3⟩⟩
      iapply (run0_mid c (grid0.coords t) _ _ _ _ _ _ _ _ _ _ _ _ (fun h => h0 ((hcond0_0 t).mp h)) (fun h => h1 ((hcond0_1 t).mp h)) (iblk0 V c 0 t) (iblk0 V c 1 t) (iblk0 V c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hkeep]
      · isplitl [HS0]; · iexact HS0
        isplitl [HS1]; · iexact HS1
        iexact Hkeep
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 176 := N_0; omega)]
  unfold keep0
  iintro ⟨HS0, HS1, Hk⟩
  iapply Hk
  isplitl [HS0]; · iexists _; iexact HS0
  iexists _; iexact HS1

end Cert.Kernel.Hand

end
-- ==== Proof.K.Body1.lean ====
import proofs.«112804_j30425548325397_2_alg».proof.Proof.Gen.Kernel.Launch
import proofs.«112804_j30425548325397_2_alg».proof.Proof.Gen.Kernel.Skeleton
import proofs.«112804_j30425548325397_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.K.Acc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the down projection): its body at every grid point, and the region's proof data

The grid is (m, n, k) ∈ 4 × 4 × 22, k fastest. The body restarts its accumulator where k = 0, adds the point's product
at every point, and stores the accumulator into the output block where k = 21; elsewhere the output block is not touched. -/

/-- "k = 0" as the body computes it, -/
abbrev cond1_0 (i : grid1.Coords) : Prop := (Scalar.cmpi .ne (Scalar.extui (Scalar.cmpi .eq (BitVec.ofNat 32 (i 2).val) 0#32)) 0#32) = 1#1
/-- and "k = 21". -/
abbrev cond1_1 (i : grid1.Coords) : Prop := k1_cond2 i = 1#1
theorem hcond1_0 : ∀ t : Fin cfg1.N, cond1_0 (grid1.coords t) ↔ t.val % 22 = 0 :=
  (by decide +kernel : ∀ t : Fin grid1.N, cond1_0 (grid1.coords t) ↔ t.val % 22 = 0)
theorem hcond1_1 : ∀ t : Fin cfg1.N, cond1_1 (grid1.coords t) ↔ t.val % 22 = 21 :=
  (by decide +kernel : ∀ t : Fin grid1.N, cond1_1 (grid1.coords t) ↔ t.val % 22 = 21)

/-- The input windows are never idle; the output window is idle, and not written back, exactly off k = 21. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the body is called with at point `t`, and the accumulator's buffer. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1 : Memref sig .tc .vmem S1024x1024 .f32 := Memref.whole cc1_scratch0

theorem hz2 : (![0, 0] : Fin 2 → Nat) = fun _ => 0 := by funext a; fin_cases a <;> rfl

/-! ## The body, case by case, on any whole memrefs -/

set_option maxHeartbeats 1000000 in
/-- k = 0, not the last tile: the accumulator, whatever it held, ends at the point's product added to the zero block;
    the output block is not touched. -/
theorem run1_first (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : cond1_0 i) (hc1 : ¬cond1_1 i)
    (x0 : Vec F S1024x512 .bf16) (x1 : Vec F S1024x512 .bf16) (d : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare d ∗ (∃ s, owns (c : Thread nD τ) arg6 fullShare s)
        ∗ (iprop(owns (c : Thread nD τ) arg3 fullShare x0 ∗ owns (c : Thread nD τ) arg4 fullShare x1 ∗ owns (c : Thread nD τ) arg5 fullShare d ∗ owns (c : Thread nD τ) arg6 fullShare (k1_pay2 x0 x1 (k1_pay1 (F := F)))) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%s, %fs, %hfs, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero hz2 inb_S1024x1024_S1024x1024_0_0 y⟩), View.canon_cons_unit_zero hz2]
  sl_unfold_words
  rw [View.readCov_unit_zero (S := S1024x1024) arg6.view hz2 inb_S1024x1024_S1024x1024_0_0]
  simp only [View.readAt_eq_ld, Memref.IsWhole.read_unread, View.ld_unit_zero (S := S1024x512) hz2]

set_option maxHeartbeats 1000000 in
/-- 0 < k < 21: the accumulator goes from `s` to `s` plus the point's product; the output block is not touched. -/
theorem run1_mid (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond1_0 i) (hc1 : ¬cond1_1 i)
    (x0 : Vec F S1024x512 .bf16) (x1 : Vec F S1024x512 .bf16) (d : Vec F S1024x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare d ∗ owns (c : Thread nD τ) arg6 fullShare s
        ∗ (iprop(owns (c : Thread nD τ) arg3 fullShare x0 ∗ owns (c : Thread nD τ) arg4 fullShare x1 ∗ owns (c : Thread nD τ) arg5 fullShare d ∗ owns (c : Thread nD τ) arg6 fullShare (k1_pay2 x0 x1 s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero hz2 inb_S1024x1024_S1024x1024_0_0 y⟩), View.canon_unit_zero hz2]
  simp only [View.readAt_eq_ld, Memref.IsWhole.read_unread, View.ld_unit_zero (S := S1024x512) hz2, View.ld_unit_zero (S := S1024x1024) hz2]

set_option maxHeartbeats 1000000 in
/-- k = 21: the accumulator goes from `s` to `s` plus the point's product, and the output block, whatever it held,
    ends at the same sum. -/
theorem run1_last (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond1_0 i) (hc1 : cond1_1 i)
    (x0 : Vec F S1024x512 .bf16) (x1 : Vec F S1024x512 .bf16) (s : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare s
        ∗ (iprop(owns (c : Thread nD τ) arg3 fullShare x0 ∗ owns (c : Thread nD τ) arg4 fullShare x1 ∗ owns (c : Thread nD τ) arg5 fullShare (k1_pay2 x0 x1 s) ∗ owns (c : Thread nD τ) arg6 fullShare (k1_pay2 x0 x1 s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d, %f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_singleton_self _, View.mem_set_unit_zero hz2 inb_S1024x1024_S1024x1024_0_0 y⟩), View.canon_unit_zero hz2]
    sl_unfold_words
    rw [View.readCov_unit_zero (S := S1024x1024) arg6.view hz2 inb_S1024x1024_S1024x1024_0_0]
    simp only [View.readAt_eq_ld, Memref.IsWhole.read_unread, View.ld_unit_zero (S := S1024x512) hz2, View.ld_unit_zero (S := S1024x1024) hz2]
  iexists _; isplitr
  swap; · iexact HS
  ipureintro
  sl_unfold_words
  rw [View.read_writes_eq_canon _ _ _ (fun y => ⟨_, List.mem_singleton_self _, View.mem_set_unit_zero hz2 inb_S1024x1024_S1024x1024_0_0 y⟩), View.canon_unit_zero hz2]
  simp only [View.readAt_eq_ld, Memref.IsWhole.read_unread, View.ld_unit_zero (S := S1024x512) hz2, View.ld_unit_zero (S := S1024x1024) hz2]

end Cert.Kernel.Hand

end
-- ==== Proof.K.Frame1.lean ====
import proofs.«112804_j30425548325397_2_alg».proof.Proof.Gen.Kernel.Launch
import proofs.«112804_j30425548325397_2_alg».proof.Proof.Gen.Kernel.Skeleton
import proofs.«112804_j30425548325397_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the invariant between grid points, the proof data, the body obligation

Between two points the accumulator's buffer holds `acc1` of the point just run; before the first point it holds
anything, as every other buffer of the core that no window stages does. -/

/-- The core's scoped buffers that region 1 does not stage, with the accumulator's singled out. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1 fullShare d)) ∗ (∃ r, prngReg c r)) := by
  unfold Pipeline.ΦA; rw [scopedRest1_eq]; simp only [scM1, owns_whole]; try rfl

/-- Everything of that invariant but the accumulator: given the accumulator at any contents it is the whole again. -/
def keep1 (c : Dev nD) : sProp 𝕄 :=
  iprop((∃ d, owns (c : Thread nD τ) scM1 fullShare d) -∗ Pipeline.ΦA spec1 c)

theorem PhiA1_split (c : Dev nD) :
    (Pipeline.ΦA spec1 c : sProp 𝕄) ⊢ iprop((∃ d, owns (c : Thread nD τ) scM1 fullShare d) ∗ keep1 (F := F) c) := by
  unfold keep1; rw [PhiA1_eq]
  iintro ⟨⟨H1, H2, H3, H4, H5, H6, H7, H8, H9, H10, HS⟩, Hg⟩
  isplitl [HS]; · iexact HS
  iintro HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  · iexact Hg

/-- The invariant before position `n`: before the first point every unstaged buffer at anything; afterwards the
    accumulator at what the point before left. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ keep1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ keep1 (F := F) c) := rfl
theorem PhiS1_pos (c : Dev nD) (n : ℕ) (h : n ≤ cfg1.N) (hz : n ≠ 0) :
    PhiS1 V c n h = iprop(owns (c : Thread nD τ) scM1 fullShare (acc1 V c (n - 1) (by omega)) ∗ keep1 (F := F) c) := by
  cases n with
  | zero => exact absurd rfl hz
  | succ n => rfl

/-- At any position the invariant yields the accumulator's buffer at SOME contents beside the rest. -/
theorem PhiS1_any (c : Dev nD) (n : ℕ) (h : n ≤ cfg1.N) :
    PhiS1 V c n h ⊢ iprop((∃ s, owns (c : Thread nD τ) scM1 fullShare s) ∗ keep1 (F := F) c) := by
  cases n with
  | zero => exact PhiA1_split c
  | succ n =>
    rw [PhiS1_succ]
    iintro ⟨HS, Hk⟩
    isplitl [HS]; · iexists _; iexact HS
    iexact Hk

/-- Region 1's proof data on core `c`: the arrays as the region finds them; the inputs' buffers keep their blocks,
    the output's holds the accumulator; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => oblk1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oblk1 V c t := by dsimp only [dat1]

/-- An input window's buffer holds its block at every point (it is fetched there). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is read off its position in the grid. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 352 := lt_of_lt_of_eq t.isLt (show cfg1.N = 352 from N_1)
  by_cases h1 : t.val % 22 = 21
  · have h0 : ¬ t.val % 22 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    unfold oblk1
    rw [acc1_step V c t h0, PhiS1_pos V c _ _ hz]
    iintro ⟨⟨HS, Hkeep⟩, Ho, ⟨%d0, H0⟩, ⟨%d1, H1⟩, ⟨%d2, H2⟩⟩
    iapply (run1_last c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hkeep]
    · isplitl [HS]; · iexact HS
      iexact Hkeep
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 22 = 0
    · rw [acc1_reset V c t h0]
      iintro ⟨HΦ, Ho, ⟨%d0, H0⟩, ⟨%d1, H1⟩, ⟨%d2, H2⟩⟩
      ihave HΦ' := (PhiS1_any V c _ _) $$ HΦ
      icases HΦ' with ⟨HS, Hkeep⟩
      iapply (run1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hkeep]
      · isplitl [HS]; · iexact HS
        iexact Hkeep
      isplitl [Ho]; · iexact Ho
      isplitl [H0]; · iexact H0
      isplitl [H1]; · iexact H1
      iexists _; iexact H2
    · have hz : t.val ≠ 0 := fun e => h0 (by rw [e])
      rw [acc1_step V c t h0, PhiS1_pos V c _ _ hz]
      iintro ⟨⟨HS, Hkeep⟩, Ho, ⟨%d0, H0⟩, ⟨%d1, H1⟩, ⟨%d2, H2⟩⟩
      iapply (run1_mid c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hkeep]
      · isplitl [HS]; · iexact HS
        iexact Hkeep
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the region is handed; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- after the last it gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 352 := N_1; omega)]
  unfold keep1
  iintro ⟨HS, Hk⟩
  iapply Hk
  iexists _; iexact HS

end Cert.Kernel.Hand

end
-- ==== Proof.K.RunRegions.lean ====
/-
  The two-region run with only the regions left to give. The conditional run (every unscoped buffer at the last
  valuation, given one segment record per kernel region) is taken at the unit index type, the rounds algebra alone and no
  level: no core owes another anything, and beside the buffers each core carries its generator register at some state
  and its dues at nothing. The launch gives exactly that rest; the end projects the dues. From the run two readings of
  the final memory: each argument as launched (the frame), and the result buffer at the last valuation beside them.
-/
import proofs.«112804_j30425548325397_2_alg».proof.Proof.K.RunCond

noncomputable section

namespace Cert.Kernel.GenP

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## The instantiation: only the regions are left to give -/

local notation "𝕄" => MT nD τ sig Unit (Elt F) ℕ (UR sig nD τ) ℕ

/-- What rides beside the buffers through every item: the core's generator register at some state and its dues, at nothing. -/
abbrev Rr (c : Dev nD) : sProp 𝕄 := iprop((∃ r, prngReg c r) ∗ ∃ W, owes (c : Thread nD τ) (0 : CellTallies nD τ sig Unit) W)
/-- No core owes another anything: no level is assigned. -/
abbrev L0 : GSem nD τ sig → Finset Unit := fun _ => ∅
abbrev lv0 : GSem nD τ sig → Unit → ℕ := fun _ _ => 0

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN FROM THE TWO REGIONS. Given, per region, a segment record entered from every unscoped buffer at the valuation
    before it beside `Rr` and left at the valuation after it beside `Rr`, @main terminates and every unscoped buffer ends at
    the last valuation. -/
theorem run_regions (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V6 m c) ∗ Rr (F := F) c) ⊢ R0.pre c)
    (hpost0 : ∀ c : Dev nD, R0.post c ⊢ iprop(StableHlo.held (c : Thread nD τ) (Pipeline.ucRefs τ sig) (V7 m outs c) ∗ Rr (F := F) c))
    (R1 : RegionSeg (pcfgs (F := F)) adm pdats () defs₀ Variants.none L0 lv0 1)
    (hpre1 : ∀ c : Dev nD, iprop(StableHlo.held (c : Thread nD τ) (Pipeline.ucRefs τ sig) (V7 m outs c) ∗ Rr (F := F) c) ⊢ R1.pre c)
    (hpost1 : ∀ c : Dev nD, R1.post c ⊢ iprop(StableHlo.held (c : Thread nD τ) (Pipeline.ucRefs τ sig) (V8 m outs c) ∗ Rr (F := F) c)) :
    θ_run defs (onTc (τ := τ) (main (F := F))) ⟨m, fun _ => 0, ρ⟩
      (fun r => ∀ c : Dev nD, ∀ b ∈ Pipeline.ucRefs τ sig, r.2.mem ((c : Thread nD τ).1, b) = V9 m outs c b) :=
  run_cond m emb₁ () Variants.none L0 lv0 (fun _ _ => rfl) ρ outs pdats 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr (F := F) c)
    (by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ Rr (F := F) c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => Rr (F := F) c) : sProp 𝕄) :=
        bigSep_mono fun c _ => hc c
      iintro ⟨H, -⟩
      imodintro
      ihave H' := hmono $$ H
      iexact H')
    (fun c => by
      iintro ⟨-, HO⟩
      iexact HO)
    R0 hpre0 hpost0 R1 hpre1 hpost1

/-- THE FRAME FROM THE TWO REGIONS: every final memory holds each argument as launched. -/
theorem frame_regions (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V6 m c) ∗ Rr (F := F) c) ⊢ R0.pre c)
    (hpost0 : ∀ c : Dev nD, R0.post c ⊢ iprop(StableHlo.held (c : Thread nD τ) (Pipeline.ucRefs τ sig) (V7 m outs c) ∗ Rr (F := F) c))
    (R1 : RegionSeg (pcfgs (F := F)) adm pdats () defs₀ Variants.none L0 lv0 1)
    (hpre1 : ∀ c : Dev nD, iprop(StableHlo.held (c : Thread nD τ) (Pipeline.ucRefs τ sig) (V7 m outs c) ∗ Rr (F := F) c) ⊢ R1.pre c)
    (hpost1 : ∀ c : Dev nD, R1.post c ⊢ iprop(StableHlo.held (c : Thread nD τ) (Pipeline.ucRefs τ sig) (V8 m outs c) ∗ Rr (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono
    (Q := fun r => ∀ c : Dev nD, ∀ b ∈ Pipeline.ucRefs τ sig, r.2.mem ((c : Thread nD τ).1, b) = V9 m outs c b) (fun r h c =>
    ⟨(h c _ (mem_uc main_arg0 (by decide))).trans (V9_main_arg0 m outs c),
     (h c _ (mem_uc main_arg1 (by decide))).trans (V9_main_arg1 m outs c),
     (h c _ (mem_uc main_arg2 (by decide))).trans (V9_main_arg2 m outs c)⟩)
    (run_regions m ρ outs pdats R0 hpre0 hpost0 R1 hpre1 hpost1)

/-- THE RESULT FROM THE TWO REGIONS: every final memory holds the result buffer at the last valuation and each argument
    as launched. -/
theorem result_regions (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V6 m c) ∗ Rr (F := F) c) ⊢ R0.pre c)
    (hpost0 : ∀ c : Dev nD, R0.post c ⊢ iprop(StableHlo.held (c : Thread nD τ) (Pipeline.ucRefs τ sig) (V7 m outs c) ∗ Rr (F := F) c))
    (R1 : RegionSeg (pcfgs (F := F)) adm pdats () defs₀ Variants.none L0 lv0 1)
    (hpre1 : ∀ c : Dev nD, iprop(StableHlo.held (c : Thread nD τ) (Pipeline.ucRefs τ sig) (V7 m outs c) ∗ Rr (F := F) c) ⊢ R1.pre c)
    (hpost1 : ∀ c : Dev nD, R1.post c ⊢ iprop(StableHlo.held (c : Thread nD τ) (Pipeline.ucRefs τ sig) (V8 m outs c) ∗ Rr (F := F) c)) :
    θ_run defs (onTc (τ := τ) (main (F := F))) ⟨m, fun _ => 0, ρ⟩ (fun r => ∀ c : Dev nD,
      r.2.mem ((c.tc : Thread nD τ).loc main_v12) = V9 m outs c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono
    (Q := fun r => ∀ c : Dev nD, ∀ b ∈ Pipeline.ucRefs τ sig, r.2.mem ((c : Thread nD τ).1, b) = V9 m outs c b) (fun r h c =>
    ⟨h c _ (mem_uc main_v12 (by decide)),
     (h c _ (mem_uc main_arg0 (by decide))).trans (V9_main_arg0 m outs c),
     (h c _ (mem_uc main_arg1 (by decide))).trans (V9_main_arg1 m outs c),
     (h c _ (mem_uc main_arg2 (by decide))).trans (V9_main_arg2 m outs c)⟩)
    (run_regions m ρ outs pdats R0 hpre0 hpost0 R1 hpre1 hpost1)

end Cert.Kernel.GenP

end
-- ==== Proof.K.Run.lean ====
import proofs.«112804_j30425548325397_2_alg».proof.Proof.Gen.Kernel.Launch
import proofs.«112804_j30425548325397_2_alg».proof.Proof.Gen.Kernel.Skeleton
import proofs.«112804_j30425548325397_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.K.Frame0
import proofs.«112804_j30425548325397_2_alg».proof.Proof.K.Frame1
import proofs.«112804_j30425548325397_2_alg».proof.Proof.K.RunRegions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.GenP

variable (m : (ℓ : Loc nD τ sig) → Buf (Elt F) ℓ) (ρ : Dev nD → PrngReg)

/-! # The run: @main's two regions entered from, and left at, named contents

Region 0 is entered with the host prefix applied to the launch memory and leaves the hidden array in its output
window's buffer; region 1 is entered with that and leaves the result's rows in its own. -/

/-- The buffers region 0 is entered with, read at the core's references. -/
abbrev E0 (c : Dev nD) (b : Ref sig .tc) : Buf (Elt F) ((c : Thread nD τ).loc b) := V6 m c (Proc.devRef .tc b)

/-- What region 0 leaves in its output window's array. -/
def hid (c : Dev nD) : Buf (Elt F) ((c : Thread nD τ).loc main_v10) := (dat0 (E0 m) c).arrAt 3 cfg0.N

/-- The buffers after region 0: the hidden array in place, everything else as entered. -/
def X7 (c : Dev nD) : Valuation τ sig (Elt F) := Function.update (V6 m c) (Proc.devRef .tc main_v10) (hid m c)
abbrev E1 (c : Dev nD) (b : Ref sig .tc) : Buf (Elt F) ((c : Thread nD τ).loc b) := X7 m c (Proc.devRef .tc b)

/-- What region 1 leaves in its output window's array. -/
def res (c : Dev nD) : Buf (Elt F) ((c : Thread nD τ).loc main_v11) := (dat1 (E1 m) c).arrAt 2 cfg1.N

/-- The buffers after region 1. -/
def X8 (c : Dev nD) : Valuation τ sig (Elt F) := Function.update (X7 m c) (Proc.devRef .tc main_v11) (res m c)
abbrev E2 (c : Dev nD) (b : Ref sig .tc) : Buf (Elt F) ((c : Thread nD τ).loc b) := X8 m c (Proc.devRef .tc b)

/-- The same, as the family of contents the regions may leave. -/
def outs : Outs (F := F) := fun J r c => if J = 7 then X7 m c (Proc.devRef .tc r) else X8 m c (Proc.devRef .tc r)

theorem X7_v10 (c : Dev nD) : X7 m c (Proc.devRef .tc main_v10) = hid m c := by
  unfold X7; exact Function.update_self ..
theorem X7_of_ne (c : Dev nD) (b : Ref sig .tc) (h : b ≠ main_v10) : X7 m c (Proc.devRef .tc b) = V6 m c (Proc.devRef .tc b) := by
  unfold X7; exact Function.update_of_ne (StableHlo.devRef_ne_of_ne h) ..
theorem X8_v11 (c : Dev nD) : X8 m c (Proc.devRef .tc main_v11) = res m c := by
  unfold X8; exact Function.update_self ..
theorem X8_of_ne (c : Dev nD) (b : Ref sig .tc) (h : b ≠ main_v11) : X8 m c (Proc.devRef .tc b) = X7 m c (Proc.devRef .tc b) := by
  unfold X8; exact Function.update_of_ne (StableHlo.devRef_ne_of_ne h) ..

theorem V7_eq (c : Dev nD) : V7 m (outs m) c = X7 m c := by
  show Function.update (V6 m c) _ (outs m 7 main_v10 c) = _
  rw [show outs m 7 main_v10 c = X7 m c (Proc.devRef .tc main_v10) from if_pos rfl, X7_v10]; rfl
theorem V8_eq (c : Dev nD) : V8 m (outs m) c = X8 m c := by
  show Function.update (V7 m (outs m) c) _ (outs m 8 main_v11 c) = _
  rw [V7_eq, show outs m 8 main_v11 c = X8 m c (Proc.devRef .tc main_v11) from if_neg (by decide), X8_v11]; rfl

/-- Both pipelines' proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- Region 0 leaves each of its arrays at the contents `X7` names, and touches no other buffer. -/
theorem hF0 (c : Dev nD) (w : Fin cfg0.W) : (dat0 (E0 m) c).arrAt w cfg0.N = E1 m c (Pipeline.arrRef spec0 w) := by
  match w with
  | ⟨0, _⟩ => exact (((dat0 (E0 m) c).arrAt_in 0 rfl _).trans (A_eq0 (E0 m) c 0)).trans (X7_of_ne m c main_v1 (by decide)).symm
  | ⟨1, _⟩ => exact (((dat0 (E0 m) c).arrAt_in 1 rfl _).trans (A_eq0 (E0 m) c 1)).trans (X7_of_ne m c main_v6 (by decide)).symm
  | ⟨2, _⟩ => exact (((dat0 (E0 m) c).arrAt_in 2 rfl _).trans (A_eq0 (E0 m) c 2)).trans (X7_of_ne m c main_v7 (by decide)).symm
  | ⟨3, _⟩ => exact (X7_v10 m c).symm
theorem hrest0 (c : Dev nD) : ∀ b, b ∉ Finset.univ.image (Pipeline.arrRef spec0) → E1 m c b = E0 m c b :=
  fun b hb => X7_of_ne m c b fun e => hb (Finset.mem_image.mpr ⟨3, Finset.mem_univ _, e.symm⟩)

theorem hF1 (c : Dev nD) (w : Fin cfg1.W) : (dat1 (E1 m) c).arrAt w cfg1.N = E2 m c (Pipeline.arrRef spec1 w) := by
  match w with
  | ⟨0, _⟩ => exact (((dat1 (E1 m) c).arrAt_in 0 rfl _).trans (A_eq1 (E1 m) c 0)).trans (X8_of_ne m c main_v10 (by decide)).symm
  | ⟨1, _⟩ => exact (((dat1 (E1 m) c).arrAt_in 1 rfl _).trans (A_eq1 (E1 m) c 1)).trans (X8_of_ne m c main_v9 (by decide)).symm
  | ⟨2, _⟩ => exact (X8_v11 m c).symm
theorem hrest1 (c : Dev nD) : ∀ b, b ∉ Finset.univ.image (Pipeline.arrRef spec1) → E2 m c b = E1 m c b :=
  fun b hb => X8_of_ne m c b fun e => hb (Finset.mem_image.mpr ⟨2, Finset.mem_univ _, e.symm⟩)

set_option backward.isDefEq.respectTransparency.types false in
/-- Region 0 as a segment of @main: entered with every unscoped buffer at the prefix's contents, left with the hidden
    array in place. Its arrays are split out of the unscoped buffers and put back; the generator register goes into
    the invariant and comes out of it; nothing is owed. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V6 m c) ∗ Rr c)
  post c := iprop(StableHlo.held (c : Thread nD τ) (Pipeline.ucRefs τ sig) (X7 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with the hidden array in place, left with the result's rows in place. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (X7 m c) ∗ Rr c)
  post c := iprop(StableHlo.held (c : Thread nD τ) (Pipeline.ucRefs τ sig) (X8 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE FRAME, at any `F`: @main runs to the end, nothing faulting, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_regions m ρ (outs m) (pdats m) (reg0 m) (fun c => .rfl) (fun c => by rw [V7_eq]; exact .rfl)
    (reg1 m) (fun c => by rw [V7_eq]; exact .rfl) (fun c => by rw [V8_eq]; exact .rfl)

/-- THE RUN WITH ITS RESULT: besides, the result buffer ends at the last host operation applied to what region 1 left. -/
theorem run_result : θ_run defs (onTc (τ := τ) (main (F := F))) ⟨m, fun _ => 0, ρ⟩ (fun r => ∀ c : Dev nD,
      r.2.mem ((c.tc : Thread nD τ).loc main_v12) = StableHlo.after hostOps2 (X8 m c) (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (by show StableHlo.after hostOps2 (V8 m (outs m) c) _ = _; rw [V8_eq]), (h c).2⟩)
    (result_regions m ρ (outs m) (pdats m) (reg0 m) (fun c => .rfl) (fun c => by rw [V7_eq]; exact .rfl)
      (reg1 m) (fun c => by rw [V7_eq]; exact .rfl) (fun c => by rw [V8_eq]; exact .rfl))

end Cert.Kernel.Hand

end
-- ==== Proof.KI.Body0Defs.lean ====
/-
  The gate/up kernel's two control conditions, shared by the three cases of its body.

  The body clears its accumulators at the first step along the contraction axis and writes the output block at the
  last one; the two conditions below are the tests it makes, spelt as the printed program spells them.
-/
import proofs.«112804_j30425548325397_2_alg».proof.Proof.Gen.KernelIdeal.Launch
import proofs.«112804_j30425548325397_2_alg».proof.Proof.Gen.KernelIdeal.Skeleton
import proofs.«112804_j30425548325397_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first step along the contraction axis: the accumulators are cleared before use. -/
abbrev cond0_0 (i : grid0.Coords) : Prop := (Scalar.cmpi .ne (Scalar.extui (Scalar.cmpi .eq (BitVec.ofNat 32 (i 2).val) 0#32)) 0#32) = 1#1
/-- The last step along the contraction axis: the output block is written. -/
abbrev cond0_1 (i : grid0.Coords) : Prop := k0_cond2 i = 1#1
theorem hz0 : (![0, 0] : Fin 2 → Nat) = fun _ => 0 := by funext a; fin_cases a <;> rfl

end Cert.KernelIdeal.Hand

end
-- ==== Proof.KI.Body0First.lean ====
/-
  The gate/up kernel's body at the first step of the contraction axis: both accumulators are cleared, whatever they
  held, and then gain their products; the output block is not touched.
-/
import proofs.«112804_j30425548325397_2_alg».proof.Proof.KI.Body0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first step: both accumulators are cleared, then gain their products; the output block is left as found. -/
theorem run0_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : cond0_0 i) (hc1 : ¬cond0_1 i)
    (x0 x1 x2 : Vec F S1024x1024 .bf16) (d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d ∗ (∃ s, owns (c : Thread nD τ) arg7 fullShare s) ∗ (∃ s, owns (c : Thread nD τ) arg8 fullShare s)
        ∗ (iprop(owns (c : Thread nD τ) arg3 fullShare x0 ∗ owns (c : Thread nD τ) arg4 fullShare x1 ∗ owns (c : Thread nD τ) arg5 fullShare x2 ∗ owns (c : Thread nD τ) arg6 fullShare d ∗ owns (c : Thread nD τ) arg7 fullShare (k0_pay4 x0 x1 (k0_pay1 (F := F))) ∗ owns (c : Thread nD τ) arg8 fullShare (k0_pay5 x0 x2 (k0_pay2 (F := F)))) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%fd, %hfd, HD⟩, ⟨%s0, %fs0, %hfs0, HS0⟩, ⟨%s1, %fs1, %hfs1, HS1⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HD]
  · iexists _; isplitr; · ipureintro; exact hfd
    iexact HD
  isplitl [HS0]
  · iexists _; isplitr
    swap; · iexact HS0
    ipureintro
    rw [View.read_writes_eq_canon _ _ _ (fun y => ⟨_, List.mem_cons.mpr (Or.inl rfl), View.mem_set_unit_zero hz0 inb_S1024x1024_S1024x1024_0_0 y⟩), View.canon_cons_unit_zero hz0]
    sl_unfold_words
    rw [View.readCov_unit_zero (S := S1024x1024) arg7.view hz0 inb_S1024x1024_S1024x1024_0_0]
    simp only [View.readAt_eq_ld, Memref.IsWhole.read_unread, View.ld_unit_zero (S := S1024x1024) hz0]
  iexists _; isplitr
  swap; · iexact HS1
  ipureintro
  rw [View.read_writes_eq_canon _ _ _ (fun y => ⟨_, List.mem_cons.mpr (Or.inl rfl), View.mem_set_unit_zero hz0 inb_S1024x1024_S1024x1024_0_0 y⟩), View.canon_cons_unit_zero hz0]
  sl_unfold_words
  rw [View.readCov_unit_zero (S := S1024x1024) arg8.view hz0 inb_S1024x1024_S1024x1024_0_0]
  simp only [View.readAt_eq_ld, Memref.IsWhole.read_unread, View.ld_unit_zero (S := S1024x1024) hz0]

end Cert.KernelIdeal.Hand

end
-- ==== Proof.KI.Body0Mid.lean ====
/-
  The gate/up kernel's body at a middle step of the contraction axis: each accumulator gains the product of the token
  block with its weight block, and the output block is not touched.
-/
import proofs.«112804_j30425548325397_2_alg».proof.Proof.KI.Body0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A middle step: both accumulators gain their products; the output block is left as found. -/
theorem run0_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : ¬cond0_1 i)
    (x0 x1 x2 : Vec F S1024x1024 .bf16) (d : Vec F S1024x1024 .bf16) (s0 s1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2 ∗ owns (c : Thread nD τ) arg6 fullShare d ∗ owns (c : Thread nD τ) arg7 fullShare (k0_pay4 x0 x1 s0) ∗ owns (c : Thread nD τ) arg8 fullShare (k0_pay5 x0 x2 s1)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%fd, %hfd, HD⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HD]
  · iexists _; isplitr; · ipureintro; exact hfd
    iexact HD
  isplitl [HS0]
  · iexists _; isplitr
    swap; · iexact HS0
    ipureintro
    rw [View.read_writes_eq_canon _ _ _ (fun y => ⟨_, List.mem_singleton_self _, View.mem_set_unit_zero hz0 inb_S1024x1024_S1024x1024_0_0 y⟩), View.canon_unit_zero hz0]
    simp only [View.readAt_eq_ld, Memref.IsWhole.read_unread, View.ld_unit_zero (S := S1024x1024) hz0]
  iexists _; isplitr
  swap; · iexact HS1
  ipureintro
  rw [View.read_writes_eq_canon _ _ _ (fun y => ⟨_, List.mem_singleton_self _, View.mem_set_unit_zero hz0 inb_S1024x1024_S1024x1024_0_0 y⟩), View.canon_unit_zero hz0]
  simp only [View.readAt_eq_ld, Memref.IsWhole.read_unread, View.ld_unit_zero (S := S1024x1024) hz0]

end Cert.KernelIdeal.Hand

end
-- ==== Proof.KI.Body0Last.lean ====
/-
  The gate/up kernel's body at the last step of the contraction axis: each accumulator gains its product, and the
  output block receives `silu(gate) · up` of the two finished accumulators, rounded to sixteen bits; what the output
  block held before does not matter.
-/
import proofs.«112804_j30425548325397_2_alg».proof.Proof.KI.Body0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last step: both accumulators gain their products, and the output block receives `silu(gate) · up` of the two
    finished accumulators, rounded to sixteen bits. -/
theorem run0_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole)
    (hc0 : ¬cond0_0 i) (hc1 : cond0_1 i)
    (x0 x1 x2 : Vec F S1024x1024 .bf16) (s0 s1 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare x2 ∗ owns (c : Thread nD τ) arg6 fullShare (k0_pay6 (k0_pay4 x0 x1 s0) (k0_pay5 x0 x2 s1)) ∗ owns (c : Thread nD τ) arg7 fullShare (k0_pay4 x0 x1 s0) ∗ owns (c : Thread nD τ) arg8 fullShare (k0_pay5 x0 x2 s1)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d, %fd, %hfd, HD⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HD]
  · iexists _; isplitr
    swap; · iexact HD
    ipureintro
    rw [View.read_writes_eq_canon _ _ _ (fun y => ⟨_, List.mem_singleton_self _, View.mem_set_unit_zero hz0 inb_S1024x1024_S1024x1024_0_0 y⟩), View.canon_unit_zero hz0]
    sl_unfold_words
    rw [View.readCov_unit_zero (S := S1024x1024) arg7.view hz0 inb_S1024x1024_S1024x1024_0_0, View.readCov_unit_zero (S := S1024x1024) arg8.view hz0 inb_S1024x1024_S1024x1024_0_0]
    simp only [View.readAt_eq_ld, Memref.IsWhole.read_unread, View.ld_unit_zero (S := S1024x1024) hz0]
  isplitl [HS0]
  · iexists _; isplitr
    swap; · iexact HS0
    ipureintro
    sl_unfold_words
    rw [View.read_writes_eq_canon _ _ _ (fun y => ⟨_, List.mem_singleton_self _, View.mem_set_unit_zero hz0 inb_S1024x1024_S1024x1024_0_0 y⟩), View.canon_unit_zero hz0]
    simp only [View.readAt_eq_ld, Memref.IsWhole.read_unread, View.ld_unit_zero (S := S1024x1024) hz0]
  iexists _; isplitr
  swap; · iexact HS1
  ipureintro
  sl_unfold_words
  rw [View.read_writes_eq_canon _ _ _ (fun y => ⟨_, List.mem_singleton_self _, View.mem_set_unit_zero hz0 inb_S1024x1024_S1024x1024_0_0 y⟩), View.canon_unit_zero hz0]
  simp only [View.readAt_eq_ld, Memref.IsWhole.read_unread, View.ld_unit_zero (S := S1024x1024) hz0]

end Cert.KernelIdeal.Hand

end
-- ==== Proof.KI.Body0.lean ====
/-
  The body of the gate/up kernel, run symbolically at one grid point, in its three cases (first, middle and last step
  along the contraction axis), each in a module of its own.
-/
import proofs.«112804_j30425548325397_2_alg».proof.Proof.KI.Body0First
import proofs.«112804_j30425548325397_2_alg».proof.Proof.KI.Body0Mid
import proofs.«112804_j30425548325397_2_alg».proof.Proof.KI.Body0Last
-- ==== Proof.KI.Acc.lean ====
/-
  What the two tiled kernels keep between grid points, as functions of the arrays each region is entered with.

  Region 0 walks the grid (m, n, k) ∈ 4 × 11 × 4, k fastest, with two accumulators: at k = 0 they restart from zero,
  at every point the products of the point's token block with its gate block and with its up block are added,
  and at k = 3 the gated product of the two accumulators is the block (m, n) of the hidden array.
  Region 1 walks (m, n, k) ∈ 4 × 4 × 22 with one accumulator over the 22 tiles of the hidden axis; at k = 21 the
  accumulator is block (m, n) of the result.
-/
import proofs.«112804_j30425548325397_2_alg».proof.Proof.Gen.KernelIdeal.Launch
import proofs.«112804_j30425548325397_2_alg».proof.Proof.Gen.KernelIdeal.Skeleton
import proofs.«112804_j30425548325397_2_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

-- the contents of the core's buffers when a region is entered: a parameter, fixed by the run
variable (V : (c : Dev nD) → (b : Ref sig .tc) → Buf (Elt F) ((c : Thread nD τ).loc b))

/-- Window `w` of region 0 at point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's gate and up accumulators after point `n`: restarted from the zero block at the points ≡ 0 (mod 4),
    otherwise what the point before left, plus this point's two products. -/
def acc0 (c : Dev nD) : (n : ℕ) → n < cfg0.N → Vec F S1024x1024 .f32 × Vec F S1024x1024 .f32
  | 0, hn => (k0_pay4 (iblk0 V c 0 ⟨0, hn⟩) (iblk0 V c 1 ⟨0, hn⟩) (k0_pay1 (F := F)),
      k0_pay5 (iblk0 V c 0 ⟨0, hn⟩) (iblk0 V c 2 ⟨0, hn⟩) (k0_pay2 (F := F)))
  | n + 1, hn =>
    if (n + 1) % 4 = 0 then
      (k0_pay4 (iblk0 V c 0 ⟨n + 1, hn⟩) (iblk0 V c 1 ⟨n + 1, hn⟩) (k0_pay1 (F := F)),
        k0_pay5 (iblk0 V c 0 ⟨n + 1, hn⟩) (iblk0 V c 2 ⟨n + 1, hn⟩) (k0_pay2 (F := F)))
    else
      (k0_pay4 (iblk0 V c 0 ⟨n + 1, hn⟩) (iblk0 V c 1 ⟨n + 1, hn⟩) (acc0 c n (Nat.lt_of_succ_lt hn)).1,
        k0_pay5 (iblk0 V c 0 ⟨n + 1, hn⟩) (iblk0 V c 2 ⟨n + 1, hn⟩) (acc0 c n (Nat.lt_of_succ_lt hn)).2)

/-- The hidden block region 0 stores at a point ≡ 3 (mod 4): the gated product of the accumulators. -/
def hblk0 (c : Dev nD) (t : Fin cfg0.N) : Vec F S1024x1024 .bf16 :=
  k0_pay6 (acc0 V c t.val t.isLt).1 (acc0 V c t.val t.isLt).2

/-- Region 1's accumulator after point `n`: restarted at the points ≡ 0 (mod 22), otherwise carried. -/
def acc1 (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 22 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- The result block region 1 stores at a point ≡ 21 (mod 22): the accumulator itself. -/
def oblk1 (c : Dev nD) (t : Fin cfg1.N) : Vec F S1024x1024 .f32 := acc1 V c t.val t.isLt

theorem acc0_reset (c : Dev nD) (t : Fin cfg0.N) (h : t.val % 4 = 0) :
    acc0 V c t.val t.isLt = (k0_pay4 (iblk0 V c 0 t) (iblk0 V c 1 t) (k0_pay1 (F := F)),
      k0_pay5 (iblk0 V c 0 t) (iblk0 V c 2 t) (k0_pay2 (F := F))) := by
  obtain ⟨n, hn⟩ := t
  cases n with
  | zero => rfl
  | succ n => exact (if_pos h).trans rfl

theorem acc0_step (c : Dev nD) (t : Fin cfg0.N) (h : ¬ t.val % 4 = 0) :
    acc0 V c t.val t.isLt = (k0_pay4 (iblk0 V c 0 t) (iblk0 V c 1 t) (acc0 V c (t.val - 1) (Nat.lt_of_le_of_lt (Nat.sub_le _ _) t.isLt)).1,
      k0_pay5 (iblk0 V c 0 t) (iblk0 V c 2 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

theorem acc1_reset (c : Dev nD) (t : Fin cfg1.N) (h : t.val % 22 = 0) :
    acc1 V c t.val t.isLt = k1_pay2 (iblk1 V c 0 t) (iblk1 V c 1 t) (k1_pay1 (F := F)) := by
  obtain ⟨n, hn⟩ := t
  cases n with
  | zero => rfl
  | succ n => exact (if_pos h).trans rfl

theorem acc1_step (c : Dev nD) (t : Fin cfg1.N) (h : ¬ t.val % 22 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

end Cert.KernelIdeal.Hand

end
-- ==== Proof.KI.Frame0.lean ====
import proofs.«112804_j30425548325397_2_alg».proof.Proof.Gen.KernelIdeal.Launch
import proofs.«112804_j30425548325397_2_alg».proof.Proof.Gen.KernelIdeal.Skeleton
import proofs.«112804_j30425548325397_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.KI.Body0
import proofs.«112804_j30425548325397_2_alg».proof.Proof.KI.Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (gate and up projections): the invariant between grid points, the proof data, the body obligation

The grid is (m, n, k) ∈ 4 × 11 × 4, k fastest. Between two points the two accumulators' buffers hold `acc0` of the
point just run; before the first point they hold anything, as every other buffer no window stages does. The output
block is stored where k = 3 and not touched elsewhere. -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x1024 .bf16 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S1024x1024 .bf16 := win0_2.stage (cfg0.slots t 2)
abbrev ms0_3 (t : Fin cfg0.N) : Memref sig .tc .vmem S1024x1024 .bf16 := win0_3.stage (cfg0.slots t 3)
abbrev scM0_0 : Memref sig .tc .vmem S1024x1024 .f32 := Memref.whole cc0_scratch0
abbrev scM0_1 : Memref sig .tc .vmem S1024x1024 .f32 := Memref.whole cc0_scratch1

/-- The core's scoped buffers that region 0 does not stage, with the two accumulators' singled out. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, owns_whole]; try rfl

/-- Everything of that invariant but the two accumulators. -/
def keep0 (c : Dev nD) : sProp 𝕄 :=
  iprop(iprop((∃ d, owns (c : Thread nD τ) scM0_0 fullShare d) ∗ (∃ d, owns (c : Thread nD τ) scM0_1 fullShare d)) -∗ Pipeline.ΦA spec0 c)

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ keep0 (F := F) c) := by
  unfold keep0; rw [PhiA0_eq]
  iintro ⟨⟨HS0, HS1, H1, H2, H3, H4, H5, H6, H7⟩, Hg⟩
  isplitl [HS0]; · iexact HS0
  isplitl [HS1]; · iexact HS1
  iintro ⟨HS0, HS1⟩
  isplitr [Hg]
  · isplitl [HS0]; · iexact HS0
    isplitl [HS1]; · iexact HS1
    isplitl [H1]; · iexact H1
    isplitl [H2]; · iexact H2
    isplitl [H3]; · iexact H3
    isplitl [H4]; · iexact H4
    isplitl [H5]; · iexact H5
    isplitl [H6]; · iexact H6
    iexact H7
  · iexact Hg

/-- The invariant before position `n`. -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2 ∗ keep0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2 ∗ keep0 (F := F) c) := rfl
theorem PhiS0_pos (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2 ∗ keep0 (F := F) c) := by
  cases n with
  | zero => exact absurd rfl hz
  | succ n => rfl

theorem PhiS0_any (c : Dev nD) (n : ℕ) (h : n ≤ cfg0.N) :
    PhiS0 V c n h ⊢ iprop((∃ s, owns (c : Thread nD τ) scM0_0 fullShare s) ∗ (∃ s, owns (c : Thread nD τ) scM0_1 fullShare s) ∗ keep0 (F := F) c) := by
  cases n with
  | zero => exact PhiA0_split c
  | succ n =>
    rw [PhiS0_succ]
    iintro ⟨HS0, HS1, Hk⟩
    isplitl [HS0]; · iexists _; iexact HS0
    isplitl [HS1]; · iexists _; iexact HS1
    iexact Hk

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hblk0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = hblk0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: which of the three cases the point is in is read off its position in the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 176 := lt_of_lt_of_eq t.isLt (show cfg0.N = 176 from N_0)
  by_cases h1 : t.val % 4 = 3
  · have h0 : ¬ t.val % 4 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    unfold hblk0
    rw [acc0_step V c t h0, PhiS0_pos V c _ _ hz]
    dsimp only
    iintro ⟨⟨HS0, HS1, Hkeep⟩, Ho, ⟨%d0, H0⟩, ⟨%d1, H1⟩, ⟨%d2, H2⟩, ⟨%d3, H3⟩⟩
    iapply (run0_last c (grid0.coords t) _ _ _ _ _ _ _ _ _ _ _ _ (fun h => h0 ((hcond0_0 t).mp h)) ((hcond0_1 t).mpr h1) (iblk0 V c 0 t) (iblk0 V c 1 t) (iblk0 V c 2 t) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hkeep]
    · isplitl [HS0]; · iexact HS0
      isplitl [HS1]; · iexact HS1
      iexact Hkeep
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 4 = 0
    · rw [acc0_reset V c t h0]
      dsimp only
      iintro ⟨HΦ, Ho, ⟨%d0, H0⟩, ⟨%d1, H1⟩, ⟨%d2, H2⟩, ⟨%d3, H3⟩⟩
      ihave HΦ' := (PhiS0_any V c _ _) $$ HΦ
      icases HΦ' with ⟨HS0, HS1, Hkeep⟩
      iapply (run0_first c (grid0.coords t) _ _ _ _ _ _ _ _ _ _ _ _ ((hcond0_0 t).mpr h0) (fun h => h1 ((hcond0_1 t).mp h)) (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hkeep]
      · isplitl [HS0]; · iexact HS0
        isplitl [HS1]; · iexact HS1
        iexact Hkeep
      isplitl [Ho]; · iexact Ho
      isplitl [H0]; · iexact H0
      isplitl [H1]; · iexact H1
      isplitl [H2]; · iexact H2
      iexists _; iexact H3
    · have hz : t.val ≠ 0 := fun e => h0 (by rw [e])
      rw [acc0_step V c t h0, PhiS0_pos V c _ _ hz]
      dsimp only
      iintro ⟨⟨HS0, HS1, Hkeep⟩, Ho, ⟨%d0, H0⟩, ⟨%d1, H1⟩, ⟨%d2, H2⟩, ⟨%d3, H3⟩⟩
      iapply (run0_mid c (grid0.coords t) _ _ _ _ _ _ _ _ _ _ _ _ (fun h => h0 ((hcond0_0 t).mp h)) (fun h => h1 ((hcond0_1 t).mp h)) (iblk0 V c 0 t) (iblk0 V c 1 t) (iblk0 V c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hkeep]
      · isplitl [HS0]; · iexact HS0
        isplitl [HS1]; · iexact HS1
        iexact Hkeep
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 176 := N_0; omega)]
  unfold keep0
  iintro ⟨HS0, HS1, Hk⟩
  iapply Hk
  isplitl [HS0]; · iexists _; iexact HS0
  iexists _; iexact HS1

end Cert.KernelIdeal.Hand

end
-- ==== Proof.KI.Body1.lean ====
import proofs.«112804_j30425548325397_2_alg».proof.Proof.Gen.KernelIdeal.Launch
import proofs.«112804_j30425548325397_2_alg».proof.Proof.Gen.KernelIdeal.Skeleton
import proofs.«112804_j30425548325397_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.KI.Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the down projection): its body at every grid point, and the region's proof data

The grid is (m, n, k) ∈ 4 × 4 × 22, k fastest. The body restarts its accumulator where k = 0, adds the point's product
at every point, and stores the accumulator into the output block where k = 21; elsewhere the output block is not touched. -/

/-- "k = 0" as the body computes it, -/
abbrev cond1_0 (i : grid1.Coords) : Prop := (Scalar.cmpi .ne (Scalar.extui (Scalar.cmpi .eq (BitVec.ofNat 32 (i 2).val) 0#32)) 0#32) = 1#1
/-- and "k = 21". -/
abbrev cond1_1 (i : grid1.Coords) : Prop := k1_cond2 i = 1#1
theorem hcond1_0 : ∀ t : Fin cfg1.N, cond1_0 (grid1.coords t) ↔ t.val % 22 = 0 :=
  (by decide +kernel : ∀ t : Fin grid1.N, cond1_0 (grid1.coords t) ↔ t.val % 22 = 0)
theorem hcond1_1 : ∀ t : Fin cfg1.N, cond1_1 (grid1.coords t) ↔ t.val % 22 = 21 :=
  (by decide +kernel : ∀ t : Fin grid1.N, cond1_1 (grid1.coords t) ↔ t.val % 22 = 21)

/-- The input windows are never idle; the output window is idle, and not written back, exactly off k = 21. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the body is called with at point `t`, and the accumulator's buffer. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1 : Memref sig .tc .vmem S1024x1024 .f32 := Memref.whole cc1_scratch0

theorem hz2 : (![0, 0] : Fin 2 → Nat) = fun _ => 0 := by funext a; fin_cases a <;> rfl

/-! ## The body, case by case, on any whole memrefs -/

set_option maxHeartbeats 1000000 in
/-- k = 0, not the last tile: the accumulator, whatever it held, ends at the point's product added to the zero block;
    the output block is not touched. -/
theorem run1_first (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : cond1_0 i) (hc1 : ¬cond1_1 i)
    (x0 : Vec F S1024x512 .bf16) (x1 : Vec F S1024x512 .bf16) (d : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare d ∗ (∃ s, owns (c : Thread nD τ) arg6 fullShare s)
        ∗ (iprop(owns (c : Thread nD τ) arg3 fullShare x0 ∗ owns (c : Thread nD τ) arg4 fullShare x1 ∗ owns (c : Thread nD τ) arg5 fullShare d ∗ owns (c : Thread nD τ) arg6 fullShare (k1_pay2 x0 x1 (k1_pay1 (F := F)))) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%s, %fs, %hfs, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero hz2 inb_S1024x1024_S1024x1024_0_0 y⟩), View.canon_cons_unit_zero hz2]
  sl_unfold_words
  rw [View.readCov_unit_zero (S := S1024x1024) arg6.view hz2 inb_S1024x1024_S1024x1024_0_0]
  simp only [View.readAt_eq_ld, Memref.IsWhole.read_unread, View.ld_unit_zero (S := S1024x512) hz2]

set_option maxHeartbeats 1000000 in
/-- 0 < k < 21: the accumulator goes from `s` to `s` plus the point's product; the output block is not touched. -/
theorem run1_mid (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond1_0 i) (hc1 : ¬cond1_1 i)
    (x0 : Vec F S1024x512 .bf16) (x1 : Vec F S1024x512 .bf16) (d : Vec F S1024x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare d ∗ owns (c : Thread nD τ) arg6 fullShare s
        ∗ (iprop(owns (c : Thread nD τ) arg3 fullShare x0 ∗ owns (c : Thread nD τ) arg4 fullShare x1 ∗ owns (c : Thread nD τ) arg5 fullShare d ∗ owns (c : Thread nD τ) arg6 fullShare (k1_pay2 x0 x1 s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero hz2 inb_S1024x1024_S1024x1024_0_0 y⟩), View.canon_unit_zero hz2]
  simp only [View.readAt_eq_ld, Memref.IsWhole.read_unread, View.ld_unit_zero (S := S1024x512) hz2, View.ld_unit_zero (S := S1024x1024) hz2]

set_option maxHeartbeats 1000000 in
/-- k = 21: the accumulator goes from `s` to `s` plus the point's product, and the output block, whatever it held,
    ends at the same sum. -/
theorem run1_last (c : Dev nD) (i : grid1.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
    (hc0 : ¬cond1_0 i) (hc1 : cond1_1 i)
    (x0 : Vec F S1024x512 .bf16) (x1 : Vec F S1024x512 .bf16) (s : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare s
        ∗ (iprop(owns (c : Thread nD τ) arg3 fullShare x0 ∗ owns (c : Thread nD τ) arg4 fullShare x1 ∗ owns (c : Thread nD τ) arg5 fullShare (k1_pay2 x0 x1 s) ∗ owns (c : Thread nD τ) arg6 fullShare (k1_pay2 x0 x1 s)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d, %f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_singleton_self _, View.mem_set_unit_zero hz2 inb_S1024x1024_S1024x1024_0_0 y⟩), View.canon_unit_zero hz2]
    sl_unfold_words
    rw [View.readCov_unit_zero (S := S1024x1024) arg6.view hz2 inb_S1024x1024_S1024x1024_0_0]
    simp only [View.readAt_eq_ld, Memref.IsWhole.read_unread, View.ld_unit_zero (S := S1024x512) hz2, View.ld_unit_zero (S := S1024x1024) hz2]
  iexists _; isplitr
  swap; · iexact HS
  ipureintro
  sl_unfold_words
  rw [View.read_writes_eq_canon _ _ _ (fun y => ⟨_, List.mem_singleton_self _, View.mem_set_unit_zero hz2 inb_S1024x1024_S1024x1024_0_0 y⟩), View.canon_unit_zero hz2]
  simp only [View.readAt_eq_ld, Memref.IsWhole.read_unread, View.ld_unit_zero (S := S1024x512) hz2, View.ld_unit_zero (S := S1024x1024) hz2]

end Cert.KernelIdeal.Hand

end
-- ==== Proof.KI.Frame1.lean ====
import proofs.«112804_j30425548325397_2_alg».proof.Proof.Gen.KernelIdeal.Launch
import proofs.«112804_j30425548325397_2_alg».proof.Proof.Gen.KernelIdeal.Skeleton
import proofs.«112804_j30425548325397_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the invariant between grid points, the proof data, the body obligation

Between two points the accumulator's buffer holds `acc1` of the point just run; before the first point it holds
anything, as every other buffer of the core that no window stages does. -/

/-- The core's scoped buffers that region 1 does not stage, with the accumulator's singled out. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1 fullShare d)) ∗ (∃ r, prngReg c r)) := by
  unfold Pipeline.ΦA; rw [scopedRest1_eq]; simp only [scM1, owns_whole]; try rfl

/-- Everything of that invariant but the accumulator: given the accumulator at any contents it is the whole again. -/
def keep1 (c : Dev nD) : sProp 𝕄 :=
  iprop((∃ d, owns (c : Thread nD τ) scM1 fullShare d) -∗ Pipeline.ΦA spec1 c)

theorem PhiA1_split (c : Dev nD) :
    (Pipeline.ΦA spec1 c : sProp 𝕄) ⊢ iprop((∃ d, owns (c : Thread nD τ) scM1 fullShare d) ∗ keep1 (F := F) c) := by
  unfold keep1; rw [PhiA1_eq]
  iintro ⟨⟨H1, H2, H3, H4, H5, H6, H7, H8, H9, H10, HS⟩, Hg⟩
  isplitl [HS]; · iexact HS
  iintro HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  · iexact Hg

/-- The invariant before position `n`: before the first point every unstaged buffer at anything; afterwards the
    accumulator at what the point before left. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ keep1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ keep1 (F := F) c) := rfl
theorem PhiS1_pos (c : Dev nD) (n : ℕ) (h : n ≤ cfg1.N) (hz : n ≠ 0) :
    PhiS1 V c n h = iprop(owns (c : Thread nD τ) scM1 fullShare (acc1 V c (n - 1) (by omega)) ∗ keep1 (F := F) c) := by
  cases n with
  | zero => exact absurd rfl hz
  | succ n => rfl

/-- At any position the invariant yields the accumulator's buffer at SOME contents beside the rest. -/
theorem PhiS1_any (c : Dev nD) (n : ℕ) (h : n ≤ cfg1.N) :
    PhiS1 V c n h ⊢ iprop((∃ s, owns (c : Thread nD τ) scM1 fullShare s) ∗ keep1 (F := F) c) := by
  cases n with
  | zero => exact PhiA1_split c
  | succ n =>
    rw [PhiS1_succ]
    iintro ⟨HS, Hk⟩
    isplitl [HS]; · iexists _; iexact HS
    iexact Hk

/-- Region 1's proof data on core `c`: the arrays as the region finds them; the inputs' buffers keep their blocks,
    the output's holds the accumulator; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => oblk1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oblk1 V c t := by dsimp only [dat1]

/-- An input window's buffer holds its block at every point (it is fetched there). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is read off its position in the grid. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 352 := lt_of_lt_of_eq t.isLt (show cfg1.N = 352 from N_1)
  by_cases h1 : t.val % 22 = 21
  · have h0 : ¬ t.val % 22 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    unfold oblk1
    rw [acc1_step V c t h0, PhiS1_pos V c _ _ hz]
    iintro ⟨⟨HS, Hkeep⟩, Ho, ⟨%d0, H0⟩, ⟨%d1, H1⟩, ⟨%d2, H2⟩⟩
    iapply (run1_last c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hkeep]
    · isplitl [HS]; · iexact HS
      iexact Hkeep
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 22 = 0
    · rw [acc1_reset V c t h0]
      iintro ⟨HΦ, Ho, ⟨%d0, H0⟩, ⟨%d1, H1⟩, ⟨%d2, H2⟩⟩
      ihave HΦ' := (PhiS1_any V c _ _) $$ HΦ
      icases HΦ' with ⟨HS, Hkeep⟩
      iapply (run1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS Hkeep]
      · isplitl [HS]; · iexact HS
        iexact Hkeep
      isplitl [Ho]; · iexact Ho
      isplitl [H0]; · iexact H0
      isplitl [H1]; · iexact H1
      iexists _; iexact H2
    · have hz : t.val ≠ 0 := fun e => h0 (by rw [e])
      rw [acc1_step V c t h0, PhiS1_pos V c _ _ hz]
      iintro ⟨⟨HS, Hkeep⟩, Ho, ⟨%d0, H0⟩, ⟨%d1, H1⟩, ⟨%d2, H2⟩⟩
      iapply (run1_mid c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hkeep]
      · isplitl [HS]; · iexact HS
        iexact Hkeep
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the region is handed; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- after the last it gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 352 := N_1; omega)]
  unfold keep1
  iintro ⟨HS, Hk⟩
  iapply Hk
  iexists _; iexact HS

end Cert.KernelIdeal.Hand

end
-- ==== Proof.KI.RunRegions.lean ====
/-
  The two-region run with only the regions left to give. The conditional run (every unscoped buffer at the last
  valuation, given one segment record per kernel region) is taken at the unit index type, the rounds algebra alone and no
  level: no core owes another anything, and beside the buffers each core carries its generator register at some state
  and its dues at nothing. The launch gives exactly that rest; the end projects the dues. From the run two readings of
  the final memory: each argument as launched (the frame), and the result buffer at the last valuation beside them.
-/
import proofs.«112804_j30425548325397_2_alg».proof.Proof.KI.RunCond

noncomputable section

namespace Cert.KernelIdeal.GenP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## The instantiation: only the regions are left to give -/

local notation "𝕄" => MT nD τ sig Unit (Elt F) ℕ (UR sig nD τ) ℕ

/-- What rides beside the buffers through every item: the core's generator register at some state and its dues, at nothing. -/
abbrev Rr (c : Dev nD) : sProp 𝕄 := iprop((∃ r, prngReg c r) ∗ ∃ W, owes (c : Thread nD τ) (0 : CellTallies nD τ sig Unit) W)
/-- No core owes another anything: no level is assigned. -/
abbrev L0 : GSem nD τ sig → Finset Unit := fun _ => ∅
abbrev lv0 : GSem nD τ sig → Unit → ℕ := fun _ _ => 0

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN FROM THE TWO REGIONS. Given, per region, a segment record entered from every unscoped buffer at the valuation
    before it beside `Rr` and left at the valuation after it beside `Rr`, @main terminates and every unscoped buffer ends at
    the last valuation. -/
theorem run_regions (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V6 m c) ∗ Rr (F := F) c) ⊢ R0.pre c)
    (hpost0 : ∀ c : Dev nD, R0.post c ⊢ iprop(StableHlo.held (c : Thread nD τ) (Pipeline.ucRefs τ sig) (V7 m outs c) ∗ Rr (F := F) c))
    (R1 : RegionSeg (pcfgs (F := F)) adm pdats () defs₀ Variants.none L0 lv0 1)
    (hpre1 : ∀ c : Dev nD, iprop(StableHlo.held (c : Thread nD τ) (Pipeline.ucRefs τ sig) (V7 m outs c) ∗ Rr (F := F) c) ⊢ R1.pre c)
    (hpost1 : ∀ c : Dev nD, R1.post c ⊢ iprop(StableHlo.held (c : Thread nD τ) (Pipeline.ucRefs τ sig) (V8 m outs c) ∗ Rr (F := F) c)) :
    θ_run defs (onTc (τ := τ) (main (F := F))) ⟨m, fun _ => 0, ρ⟩
      (fun r => ∀ c : Dev nD, ∀ b ∈ Pipeline.ucRefs τ sig, r.2.mem ((c : Thread nD τ).1, b) = V9 m outs c b) :=
  run_cond m emb₁ () Variants.none L0 lv0 (fun _ _ => rfl) ρ outs pdats 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr (F := F) c)
    (by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ Rr (F := F) c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => Rr (F := F) c) : sProp 𝕄) :=
        bigSep_mono fun c _ => hc c
      iintro ⟨H, -⟩
      imodintro
      ihave H' := hmono $$ H
      iexact H')
    (fun c => by
      iintro ⟨-, HO⟩
      iexact HO)
    R0 hpre0 hpost0 R1 hpre1 hpost1

/-- THE FRAME FROM THE TWO REGIONS: every final memory holds each argument as launched. -/
theorem frame_regions (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V6 m c) ∗ Rr (F := F) c) ⊢ R0.pre c)
    (hpost0 : ∀ c : Dev nD, R0.post c ⊢ iprop(StableHlo.held (c : Thread nD τ) (Pipeline.ucRefs τ sig) (V7 m outs c) ∗ Rr (F := F) c))
    (R1 : RegionSeg (pcfgs (F := F)) adm pdats () defs₀ Variants.none L0 lv0 1)
    (hpre1 : ∀ c : Dev nD, iprop(StableHlo.held (c : Thread nD τ) (Pipeline.ucRefs τ sig) (V7 m outs c) ∗ Rr (F := F) c) ⊢ R1.pre c)
    (hpost1 : ∀ c : Dev nD, R1.post c ⊢ iprop(StableHlo.held (c : Thread nD τ) (Pipeline.ucRefs τ sig) (V8 m outs c) ∗ Rr (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono
    (Q := fun r => ∀ c : Dev nD, ∀ b ∈ Pipeline.ucRefs τ sig, r.2.mem ((c : Thread nD τ).1, b) = V9 m outs c b) (fun r h c =>
    ⟨(h c _ (mem_uc main_arg0 (by decide))).trans (V9_main_arg0 m outs c),
     (h c _ (mem_uc main_arg1 (by decide))).trans (V9_main_arg1 m outs c),
     (h c _ (mem_uc main_arg2 (by decide))).trans (V9_main_arg2 m outs c)⟩)
    (run_regions m ρ outs pdats R0 hpre0 hpost0 R1 hpre1 hpost1)

/-- THE RESULT FROM THE TWO REGIONS: every final memory holds the result buffer at the last valuation and each argument
    as launched. -/
theorem result_regions (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none L0 lv0 0)
    (hpre0 : ∀ c : Dev nD, iprop(StableHlo.held (c : Thread nD τ) (Pipeline.ucRefs τ sig) (V6 m c) ∗ Rr (F := F) c) ⊢ R0.pre c)
    (hpost0 : ∀ c : Dev nD, R0.post c ⊢ iprop(StableHlo.held (c : Thread nD τ) (Pipeline.ucRefs τ sig) (V7 m outs c) ∗ Rr (F := F) c))
    (R1 : RegionSeg (pcfgs (F := F)) adm pdats () defs₀ Variants.none L0 lv0 1)
    (hpre1 : ∀ c : Dev nD, iprop(StableHlo.held (c : Thread nD τ) (Pipeline.ucRefs τ sig) (V7 m outs c) ∗ Rr (F := F) c) ⊢ R1.pre c)
    (hpost1 : ∀ c : Dev nD, R1.post c ⊢ iprop(StableHlo.held (c : Thread nD τ) (Pipeline.ucRefs τ sig) (V8 m outs c) ∗ Rr (F := F) c)) :
    θ_run defs (onTc (τ := τ) (main (F := F))) ⟨m, fun _ => 0, ρ⟩ (fun r => ∀ c : Dev nD,
      r.2.mem ((c.tc : Thread nD τ).loc main_v12) = V9 m outs c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono
    (Q := fun r => ∀ c : Dev nD, ∀ b ∈ Pipeline.ucRefs τ sig, r.2.mem ((c : Thread nD τ).1, b) = V9 m outs c b) (fun r h c =>
    ⟨h c _ (mem_uc main_v12 (by decide)),
     (h c _ (mem_uc main_arg0 (by decide))).trans (V9_main_arg0 m outs c),
     (h c _ (mem_uc main_arg1 (by decide))).trans (V9_main_arg1 m outs c),
     (h c _ (mem_uc main_arg2 (by decide))).trans (V9_main_arg2 m outs c)⟩)
    (run_regions m ρ outs pdats R0 hpre0 hpost0 R1 hpre1 hpost1)

end Cert.KernelIdeal.GenP

end
-- ==== Proof.KI.Run.lean ====
import proofs.«112804_j30425548325397_2_alg».proof.Proof.Gen.KernelIdeal.Launch
import proofs.«112804_j30425548325397_2_alg».proof.Proof.Gen.KernelIdeal.Skeleton
import proofs.«112804_j30425548325397_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value
import proofs.«112804_j30425548325397_2_alg».proof.Proof.KI.Frame0
import proofs.«112804_j30425548325397_2_alg».proof.Proof.KI.Frame1
import proofs.«112804_j30425548325397_2_alg».proof.Proof.KI.RunRegions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

variable (m : (ℓ : Loc nD τ sig) → Buf (Elt F) ℓ) (ρ : Dev nD → PrngReg)

/-! # The run: @main's two regions entered from, and left at, named contents

Region 0 is entered with the host prefix applied to the launch memory and leaves the hidden array in its output
window's buffer; region 1 is entered with that and leaves the result's rows in its own. -/

/-- The buffers region 0 is entered with, read at the core's references. -/
abbrev E0 (c : Dev nD) (b : Ref sig .tc) : Buf (Elt F) ((c : Thread nD τ).loc b) := V6 m c (Proc.devRef .tc b)

/-- What region 0 leaves in its output window's array. -/
def hid (c : Dev nD) : Buf (Elt F) ((c : Thread nD τ).loc main_v10) := (dat0 (E0 m) c).arrAt 3 cfg0.N

/-- The buffers after region 0: the hidden array in place, everything else as entered. -/
def X7 (c : Dev nD) : Valuation τ sig (Elt F) := Function.update (V6 m c) (Proc.devRef .tc main_v10) (hid m c)
abbrev E1 (c : Dev nD) (b : Ref sig .tc) : Buf (Elt F) ((c : Thread nD τ).loc b) := X7 m c (Proc.devRef .tc b)

/-- What region 1 leaves in its output window's array. -/
def res (c : Dev nD) : Buf (Elt F) ((c : Thread nD τ).loc main_v11) := (dat1 (E1 m) c).arrAt 2 cfg1.N

/-- The buffers after region 1. -/
def X8 (c : Dev nD) : Valuation τ sig (Elt F) := Function.update (X7 m c) (Proc.devRef .tc main_v11) (res m c)
abbrev E2 (c : Dev nD) (b : Ref sig .tc) : Buf (Elt F) ((c : Thread nD τ).loc b) := X8 m c (Proc.devRef .tc b)

/-- The same, as the family of contents the regions may leave. -/
def outs : Outs (F := F) := fun J r c => if J = 7 then X7 m c (Proc.devRef .tc r) else X8 m c (Proc.devRef .tc r)

theorem X7_v10 (c : Dev nD) : X7 m c (Proc.devRef .tc main_v10) = hid m c := by
  unfold X7; exact Function.update_self ..
theorem X7_of_ne (c : Dev nD) (b : Ref sig .tc) (h : b ≠ main_v10) : X7 m c (Proc.devRef .tc b) = V6 m c (Proc.devRef .tc b) := by
  unfold X7; exact Function.update_of_ne (StableHlo.devRef_ne_of_ne h) ..
theorem X8_v11 (c : Dev nD) : X8 m c (Proc.devRef .tc main_v11) = res m c := by
  unfold X8; exact Function.update_self ..
theorem X8_of_ne (c : Dev nD) (b : Ref sig .tc) (h : b ≠ main_v11) : X8 m c (Proc.devRef .tc b) = X7 m c (Proc.devRef .tc b) := by
  unfold X8; exact Function.update_of_ne (StableHlo.devRef_ne_of_ne h) ..

theorem V7_eq (c : Dev nD) : V7 m (outs m) c = X7 m c := by
  show Function.update (V6 m c) _ (outs m 7 main_v10 c) = _
  rw [show outs m 7 main_v10 c = X7 m c (Proc.devRef .tc main_v10) from if_pos rfl, X7_v10]; rfl
theorem V8_eq (c : Dev nD) : V8 m (outs m) c = X8 m c := by
  show Function.update (V7 m (outs m) c) _ (outs m 8 main_v11 c) = _
  rw [V7_eq, show outs m 8 main_v11 c = X8 m c (Proc.devRef .tc main_v11) from if_neg (by decide), X8_v11]; rfl

/-- Both pipelines' proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- Region 0 leaves each of its arrays at the contents `X7` names, and touches no other buffer. -/
theorem hF0 (c : Dev nD) (w : Fin cfg0.W) : (dat0 (E0 m) c).arrAt w cfg0.N = E1 m c (Pipeline.arrRef spec0 w) := by
  match w with
  | ⟨0, _⟩ => exact (((dat0 (E0 m) c).arrAt_in 0 rfl _).trans (A_eq0 (E0 m) c 0)).trans (X7_of_ne m c main_v1 (by decide)).symm
  | ⟨1, _⟩ => exact (((dat0 (E0 m) c).arrAt_in 1 rfl _).trans (A_eq0 (E0 m) c 1)).trans (X7_of_ne m c main_v6 (by decide)).symm
  | ⟨2, _⟩ => exact (((dat0 (E0 m) c).arrAt_in 2 rfl _).trans (A_eq0 (E0 m) c 2)).trans (X7_of_ne m c main_v7 (by decide)).symm
  | ⟨3, _⟩ => exact (X7_v10 m c).symm
theorem hrest0 (c : Dev nD) : ∀ b, b ∉ Finset.univ.image (Pipeline.arrRef spec0) → E1 m c b = E0 m c b :=
  fun b hb => X7_of_ne m c b fun e => hb (Finset.mem_image.mpr ⟨3, Finset.mem_univ _, e.symm⟩)

theorem hF1 (c : Dev nD) (w : Fin cfg1.W) : (dat1 (E1 m) c).arrAt w cfg1.N = E2 m c (Pipeline.arrRef spec1 w) := by
  match w with
  | ⟨0, _⟩ => exact (((dat1 (E1 m) c).arrAt_in 0 rfl _).trans (A_eq1 (E1 m) c 0)).trans (X8_of_ne m c main_v10 (by decide)).symm
  | ⟨1, _⟩ => exact (((dat1 (E1 m) c).arrAt_in 1 rfl _).trans (A_eq1 (E1 m) c 1)).trans (X8_of_ne m c main_v9 (by decide)).symm
  | ⟨2, _⟩ => exact (X8_v11 m c).symm
theorem hrest1 (c : Dev nD) : ∀ b, b ∉ Finset.univ.image (Pipeline.arrRef spec1) → E2 m c b = E1 m c b :=
  fun b hb => X8_of_ne m c b fun e => hb (Finset.mem_image.mpr ⟨2, Finset.mem_univ _, e.symm⟩)

set_option backward.isDefEq.respectTransparency.types false in
/-- Region 0 as a segment of @main: entered with every unscoped buffer at the prefix's contents, left with the hidden
    array in place. Its arrays are split out of the unscoped buffers and put back; the generator register goes into
    the invariant and comes out of it; nothing is owed. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V6 m c) ∗ Rr c)
  post c := iprop(StableHlo.held (c : Thread nD τ) (Pipeline.ucRefs τ sig) (X7 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with the hidden array in place, left with the result's rows in place. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (X7 m c) ∗ Rr c)
  post c := iprop(StableHlo.held (c : Thread nD τ) (Pipeline.ucRefs τ sig) (X8 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE FRAME, at any `F`: @main runs to the end, nothing faulting, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_regions m ρ (outs m) (pdats m) (reg0 m) (fun c => .rfl) (fun c => by rw [V7_eq]; exact .rfl)
    (reg1 m) (fun c => by rw [V7_eq]; exact .rfl) (fun c => by rw [V8_eq]; exact .rfl)

/-- THE RUN WITH ITS RESULT: besides, the result buffer ends at the last host operation applied to what region 1 left. -/
theorem run_result : θ_run defs (onTc (τ := τ) (main (F := F))) ⟨m, fun _ => 0, ρ⟩ (fun r => ∀ c : Dev nD,
      r.2.mem ((c.tc : Thread nD τ).loc main_v12) = StableHlo.after hostOps2 (X8 m c) (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (by show StableHlo.after hostOps2 (V8 m (outs m) c) _ = _; rw [V8_eq]), (h c).2⟩)
    (result_regions m ρ (outs m) (pdats m) (reg0 m) (fun c => .rfl) (fun c => by rw [V7_eq]; exact .rfl)
      (reg1 m) (fun c => by rw [V7_eq]; exact .rfl) (fun c => by rw [V8_eq]; exact .rfl))

end Cert.KernelIdeal.Hand

end
-- ==== Proof.Spec.lean ====
/-
  The mathematics both programs compute, stated once over the extended reals with no program in sight.

  A SwiGLU feed-forward block: with the tokens as rows `X` (4096 × 4096), gate and up weights `Wg`, `Wu`
  and down weights `Wd`, the hidden array is `H[r, n] = silu(∑ₖ X[r,k]·Wg[n,k]) · ∑ₖ X[r,k]·Wu[n,k]` and the
  result `O[r, j] = ∑ᵢ H[r,i]·Wd[j,i]`, where `silu z = z · 1/(1 + e^(−z))`.
  The tiled program works on weights padded with zero rows (columns) from 11008 to 11264; the padded
  positions contribute `silu(0)·0 = 0` times `0` to the last sum, so nothing changes.
-/
import Idealize.ShloMosaic.PureOps.Ideal
import Idealize.ShloMosaic.Lib.ValueIdx

noncomputable section

namespace Cert.Spec

open Idealize.ShloMosaic Idealize.ShloMosaic.ValueIdx
open scoped BigOperators

/-- The argument shapes: tokens `[2, 2048, 4096]`, stacked gate/up weights `[22016, 4096]`, down weights `[4096, 11008]`. -/
abbrev SX : Shape := ⟨3, ![2, 2048, 4096]⟩
abbrev SW : Shape := ⟨2, ![22016, 4096]⟩
abbrev SD : Shape := ⟨2, ![4096, 11008]⟩
/-- The tokens as rows `[4096, 4096]`; a padded gate or up weight `[11264, 4096]`; the padded down weight and the
    hidden array `[4096, 11264]`. -/
abbrev SX2 : Shape := ⟨2, ![4096, 4096]⟩
abbrev SWp : Shape := ⟨2, ![11264, 4096]⟩
abbrev SDp : Shape := ⟨2, ![4096, 11264]⟩

/-- `silu z = z · logistic z`. -/
def silu (z : EReal) : EReal := z * Ideal.logistic z

/-- The hidden entry at row `r`, column `n`: the gated product of the two projections of row `r`. -/
def H0c (X : SX2.Idx → EReal) (Wg Wu : SWp.Idx → EReal) (r : Fin 4096) (n : Fin 11264) : EReal :=
  silu (∑ k : Fin 4096, X (ix2 r k) * Wg (ix2 n k)) * ∑ k : Fin 4096, X (ix2 r k) * Wu (ix2 n k)

/-- The hidden array. -/
def H0 (X : SX2.Idx → EReal) (Wg Wu : SWp.Idx → EReal) : SDp.Idx → EReal :=
  fun j => H0c X Wg Wu (j 0) (j 1)

/-- The down projection's entry at row `r`, output feature `j`. -/
def O1c (Hh Wd : SDp.Idx → EReal) (r j : Fin 4096) : EReal :=
  ∑ i : Fin 11264, Hh (ix2 r i) * Wd (ix2 j i)

/-- The down projection. -/
def O1 (Hh Wd : SDp.Idx → EReal) : SX2.Idx → EReal :=
  fun q => O1c Hh Wd (q 0) (q 1)

/-- Row `2048·b + s` of the flattened tokens is token `(b, s)`. -/
def rowOf (b : Fin 2) (s : Fin 2048) : Fin 4096 := ⟨2048 * b.val + s.val, by omega⟩

/-- The tokens flattened to rows. -/
def Xofc (x : SX.Idx → EReal) (r k : Fin 4096) : EReal :=
  x (ix3 (⟨r.val / 2048, by omega⟩ : Fin 2) (⟨r.val % 2048, by omega⟩ : Fin 2048) k)
def Xof (x : SX.Idx → EReal) : SX2.Idx → EReal := fun q => Xofc x (q 0) (q 1)

/-- The gate weights (rows `0 … 11007` of the stacked weights), padded with zero rows to 11264. -/
def Wgofc (w : SW.Idx → EReal) (n : Fin 11264) (k : Fin 4096) : EReal :=
  if h : n.val < 11008 then w (ix2 (⟨n.val, by omega⟩ : Fin 22016) k) else 0
def Wgof (w : SW.Idx → EReal) : SWp.Idx → EReal := fun q => Wgofc w (q 0) (q 1)

/-- The up weights (rows `11008 … 22015`), padded with zero rows to 11264. -/
def Wuofc (w : SW.Idx → EReal) (n : Fin 11264) (k : Fin 4096) : EReal :=
  if h : n.val < 11008 then w (ix2 (⟨11008 + n.val, by omega⟩ : Fin 22016) k) else 0
def Wuof (w : SW.Idx → EReal) : SWp.Idx → EReal := fun q => Wuofc w (q 0) (q 1)

/-- The down weights, padded with zero columns to 11264. -/
def Wdofc (d : SD.Idx → EReal) (j : Fin 4096) (i : Fin 11264) : EReal :=
  if h : i.val < 11008 then d (ix2 j (⟨i.val, h⟩ : Fin 11008)) else 0
def Wdof (d : SD.Idx → EReal) : SDp.Idx → EReal := fun q => Wdofc d (q 0) (q 1)

/-- The rows split back into `[2, 2048, 4096]`. -/
def outOf (o : SX2.Idx → EReal) : SX.Idx → EReal :=
  fun j => o (ix2 (rowOf (j 0) (j 1)) (j 2))

/-- The reference's gate and up projections of token `(b, s)` at hidden feature `i`. -/
def gateC (x : SX.Idx → EReal) (w : SW.Idx → EReal) (b : Fin 2) (s : Fin 2048) (i : Fin 11008) : EReal :=
  ∑ h : Fin 4096, x (ix3 b s h) * w (ix2 (⟨i.val, by omega⟩ : Fin 22016) h)
def upC (x : SX.Idx → EReal) (w : SW.Idx → EReal) (b : Fin 2) (s : Fin 2048) (i : Fin 11008) : EReal :=
  ∑ h : Fin 4096, x (ix3 b s h) * w (ix2 (⟨11008 + i.val, by omega⟩ : Fin 22016) h)

/-- The reference's result: the gated hidden features of token `(b, s)` against row `j` of the down weights. -/
def Gc (x : SX.Idx → EReal) (w : SW.Idx → EReal) (d : SD.Idx → EReal) (b : Fin 2) (s : Fin 2048) (j : Fin 4096) : EReal :=
  ∑ i : Fin 11008, (silu (gateC x w b s i) * upC x w b s i) * d (ix2 j i)
def G (x : SX.Idx → EReal) (w : SW.Idx → EReal) (d : SD.Idx → EReal) : SX.Idx → EReal :=
  fun j => Gc x w d (j 0) (j 1) (j 2)

end Cert.Spec

end
-- ==== Proof.KI.Val0Pay.lean ====
import proofs.«112804_j30425548325397_2_alg».proof.Proof.KI.Acc
import proofs.«112804_j30425548325397_2_alg».proof.Proof.Spec
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.TcCoe Idealize.ShloMosaic.ValueIdx
open Idealize.SL Idealize.SL.Sem
open Cert.KernelIdeal Cert.KernelIdeal.Gen
open scoped BigOperators

/-- The zero block an accumulator restarts from reads the extended real `0` everywhere. -/
theorem pay1_apply (p q : Fin 1024) : k0_pay1 (F := Ideal) (ix2 p q) = 0 := by
  unfold k0_pay1
  rw [shapeCast_self]
  exact Ideal.ofBits_zero_f32

theorem pay2_apply (p q : Fin 1024) : k0_pay2 (F := Ideal) (ix2 p q) = 0 := by
  unfold k0_pay2
  rw [shapeCast_self]
  exact Ideal.ofBits_zero_f32

theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix unit's product of two blocks, both contracted along their second axis, into the zero block:
    entry `(p, q)` is the sum over `k` of `x[p, k] · w[q, k]`. -/
theorem mm_apply (x w : FVec Ideal S1024x1024 .bf16) (p q : Fin 1024) :
    matmul dot_S1024x1024_S1024x1024_S1024x1024_1_1_0_0_n_n none x w (constant (F := Ideal) S1024x1024 .f32 0x00000000#32) (ix2 p q)
      = ∑ k : Fin 1024, x (ix2 p k) * w (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- One point's step of the gate accumulator: what it held plus the product of the point's two blocks. -/
theorem pay4_apply (x w : Vec Ideal S1024x1024 .bf16) (s : Vec Ideal S1024x1024 .f32) (p q : Fin 1024) :
    k0_pay4 x w s (ix2 p q) = s (ix2 p q) + ∑ k : Fin 1024, x (ix2 p k) * w (ix2 q k) := by
  unfold k0_pay4 k0_pay3
  simp only [shapeCast_self]
  exact congrArg (s (ix2 p q) + ·) (mm_apply x w p q)

/-- The same step of the up accumulator. -/
theorem pay5_apply (x w : Vec Ideal S1024x1024 .bf16) (s : Vec Ideal S1024x1024 .f32) (p q : Fin 1024) :
    k0_pay5 x w s (ix2 p q) = s (ix2 p q) + ∑ k : Fin 1024, x (ix2 p k) * w (ix2 q k) := by
  unfold k0_pay5 k0_pay3
  simp only [shapeCast_self]
  exact congrArg (s (ix2 p q) + ·) (mm_apply x w p q)

/-- The stored block: `silu` of the gate accumulator times the up accumulator, entry by entry. -/
theorem pay6_apply (g u : Vec Ideal S1024x1024 .f32) (p q : Fin 1024) :
    k0_pay6 g u (ix2 p q) = Cert.Spec.silu (g (ix2 p q)) * u (ix2 p q) := rfl

end Cert.KernelIdeal.Val0

end
-- ==== Proof.KI.Val0Blk.lean ====
import proofs.«112804_j30425548325397_2_alg».proof.Proof.KI.Acc
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- The four windows' block indices at grid point `t` = (m, n, k), k fastest: m = t / 44, n = t / 4 mod 11,
    k = t mod 4. The token window sits at block (m, k), the two weight windows at (n, k), the hidden window at (m, n). -/
theorem idx_facts : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 2) = t.val / 4 % 11 ∧ win0_2.index t (1 : Fin 2) = t.val % 4
    ∧ win0_3.index t (0 : Fin 2) = t.val / 44 ∧ win0_3.index t (1 : Fin 2) = t.val / 4 % 11 :=
  (by decide +kernel : ∀ t : Fin grid0.N, _)

theorem lt_N (t : Fin cfg0.N) : t.val < 176 := lt_of_lt_of_eq t.isLt N_0

/-- The token block at point `t`, entry `(p, k)`: row `1024·m + p`, column `1024·k + k'` of the token array. -/
theorem blk0_apply (c : Dev nD) (t : Fin cfg0.N) (p k : Fin 1024) (i : S4096x4096.Idx)
    (h0 : (i 0).val = 1024 * (t.val / 44) + p.val) (h1 : (i 1).val = 1024 * (t.val % 4) + k.val) :
    Hand.iblk0 V c 0 t (ix2 p k) = V c main_v1 i := by
  obtain ⟨e0, e1, -⟩ := idx_facts t
  show V c main_v1 (((cfg0.win 0).blk t).view.emb (ix2 p k)) = V c main_v1 i
  refine congrArg _ (funext fun a => Fin.ext ?_)
  match a with
  | ⟨0, _⟩ => show win0_0.index t (0 : Fin 2) * 1024 + 1 * p.val = (i 0).val; omega
  | ⟨1, _⟩ => show win0_0.index t (1 : Fin 2) * 1024 + 1 * k.val = (i 1).val; omega

/-- The gate-weight block at point `t`, entry `(q, k)`: row `1024·n + q`, column `1024·k + k'`. -/
theorem blk1_apply (c : Dev nD) (t : Fin cfg0.N) (q k : Fin 1024) (i : S11264x4096.Idx)
    (h0 : (i 0).val = 1024 * (t.val / 4 % 11) + q.val) (h1 : (i 1).val = 1024 * (t.val % 4) + k.val) :
    Hand.iblk0 V c 1 t (ix2 q k) = V c main_v6 i := by
  obtain ⟨-, -, e0, e1, -⟩ := idx_facts t
  show V c main_v6 (((cfg0.win 1).blk t).view.emb (ix2 q k)) = V c main_v6 i
  refine congrArg _ (funext fun a => Fin.ext ?_)
  match a with
  | ⟨0, _⟩ => show win0_1.index t (0 : Fin 2) * 1024 + 1 * q.val = (i 0).val; omega
  | ⟨1, _⟩ => show win0_1.index t (1 : Fin 2) * 1024 + 1 * k.val = (i 1).val; omega

/-- The up-weight block at point `t`, likewise. -/
theorem blk2_apply (c : Dev nD) (t : Fin cfg0.N) (q k : Fin 1024) (i : S11264x4096.Idx)
    (h0 : (i 0).val = 1024 * (t.val / 4 % 11) + q.val) (h1 : (i 1).val = 1024 * (t.val % 4) + k.val) :
    Hand.iblk0 V c 2 t (ix2 q k) = V c main_v7 i := by
  obtain ⟨-, -, -, -, e0, e1, -⟩ := idx_facts t
  show V c main_v7 (((cfg0.win 2).blk t).view.emb (ix2 q k)) = V c main_v7 i
  refine congrArg _ (funext fun a => Fin.ext ?_)
  match a with
  | ⟨0, _⟩ => show win0_2.index t (0 : Fin 2) * 1024 + 1 * q.val = (i 0).val; omega
  | ⟨1, _⟩ => show win0_2.index t (1 : Fin 2) * 1024 + 1 * k.val = (i 1).val; omega

/-- An entry of the hidden array is in point `t`'s block iff each coordinate is in the block's range on its axis. -/
theorem mem_blk3 (t : Fin cfg0.N) (i : S4096x11264.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every entry `(r, n)` of the hidden array is in the block written back at the last point of the run of block
    `(r / 1024, n / 1024)`. -/
theorem cover3 (i : S4096x11264.Idx) :
    ∃ t : Fin cfg0.N, (cfg0.win 3).flush t = true ∧ i ∈ ((cfg0.win 3).blk t).view.set := by
  have hi0 : (i 0).val < 4096 := (i 0).isLt
  have hi1 : (i 1).val < 11264 := (i 1).isLt
  have hN : cfg0.N = 176 := N_0
  let t : Fin cfg0.N := ⟨4 * ((i 0).val / 1024 * 11 + (i 1).val / 1024) + 3, by rw [hN]; omega⟩
  have htv : t.val = 4 * ((i 0).val / 1024 * 11 + (i 1).val / 1024) + 3 := rfl
  obtain ⟨-, -, -, -, -, -, e0, e1⟩ := idx_facts t
  refine ⟨t, (flush0_3 t).mpr (by rw [htv]; omega), ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Cert.KernelIdeal.Val0

end
-- ==== Proof.KI.Val0Sum.lean ====
/-
  A sum over the 4096 positions of the contraction axis, regrouped into its four consecutive tiles of 1024:
  position `1024·j + k` is position `k` of tile `j`. Only associativity and commutativity of the addition are
  used, so the statement holds over the extended reals with no finiteness.
-/
import Mathlib.Algebra.BigOperators.Fin
import Mathlib.Logic.Equiv.Fin.Basic

open scoped BigOperators

namespace Cert.KernelIdeal.Val0

/-- Position `k` of tile `j` of the contraction axis. -/
abbrev col (j : ℕ) (hj : j < 4) (k : Fin 1024) : Fin 4096 := ⟨1024 * j + k.val, by have := k.isLt; omega⟩

variable {M : Type*} [AddCommMonoid M]

/-- A sum over `a · b` positions is the sum over `a` tiles of the sums over the `b` positions of each. -/
theorem sum_mul (a b : ℕ) (f : Fin (a * b) → M) :
    ∑ k : Fin (a * b), f k = ∑ s : Fin a, ∑ k : Fin b, f (finProdFinEquiv (s, k)) :=
  ((Equiv.sum_comp (finProdFinEquiv (m := a) (n := b)) f).symm).trans (Fintype.sum_prod_type _)

theorem sum_by_tile (f : Fin 4096 → M) :
    ∑ k : Fin 4096, f k = ∑ s : Fin 4, ∑ k : Fin 1024, f (col s.val s.isLt k) :=
  (sum_mul 4 1024 f).trans (Finset.sum_congr rfl fun s _ => Finset.sum_congr rfl fun k _ => congrArg f (Fin.ext (by
    show k.val + 1024 * s.val = 1024 * s.val + k.val; omega)))

/-- The whole sum is the four tiles' sums, added in order. -/
theorem sum_four_tiles (f : Fin 4096 → M) :
    ∑ k : Fin 4096, f k = ∑ k : Fin 1024, f (col 0 (by omega) k) + ∑ k : Fin 1024, f (col 1 (by omega) k)
      + ∑ k : Fin 1024, f (col 2 (by omega) k) + ∑ k : Fin 1024, f (col 3 (by omega) k) := by
  rw [sum_by_tile, Fin.sum_univ_four]
  rfl

end Cert.KernelIdeal.Val0
-- ==== Proof.KI.Val0Acc.lean ====
import proofs.«112804_j30425548325397_2_alg».proof.Proof.KI.Acc
import proofs.«112804_j30425548325397_2_alg».proof.Proof.KI.Val0Pay
import proofs.«112804_j30425548325397_2_alg».proof.Proof.KI.Val0Blk
import proofs.«112804_j30425548325397_2_alg».proof.Proof.KI.Val0Sum
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- The three arrays the region reads, as functions into the extended reals: the tokens as rows, the padded gate
    weights, the padded up weights. -/
abbrev aX (c : Dev nD) : S4096x4096.Idx → EReal := V c main_v1
abbrev aWg (c : Dev nD) : S11264x4096.Idx → EReal := V c main_v6
abbrev aWu (c : Dev nD) : S11264x4096.Idx → EReal := V c main_v7

/-- Their blocks at a grid point. -/
abbrev bk0 (c : Dev nD) (t : Fin cfg0.N) : Vec Ideal S1024x1024 .bf16 := Hand.iblk0 V c 0 t
abbrev bk1 (c : Dev nD) (t : Fin cfg0.N) : Vec Ideal S1024x1024 .bf16 := Hand.iblk0 V c 1 t
abbrev bk2 (c : Dev nD) (t : Fin cfg0.N) : Vec Ideal S1024x1024 .bf16 := Hand.iblk0 V c 2 t

/-! ## One point's step of each accumulator, at an entry

At the first point of a run (`k = 0`) an accumulator is zero plus the point's product; at every other point it is
what the point before left plus the point's product. -/

theorem gate_reset (c : Dev nD) (t : Fin cfg0.N) (h : t.val % 4 = 0) (p q : Fin 1024) :
    (Hand.acc0 V c t.val t.isLt).1 (ix2 p q)
      = 0 + ∑ k : Fin 1024, bk0 V c t (ix2 p k) * bk1 V c t (ix2 q k) := by
  rw [Hand.acc0_reset V c t h]
  refine (pay4_apply (Hand.iblk0 V c 0 t) (Hand.iblk0 V c 1 t) (k0_pay1 (F := Ideal)) p q).trans ?_
  rw [pay1_apply]

theorem gate_step (c : Dev nD) (t : Fin cfg0.N) (h : ¬ t.val % 4 = 0) (p q : Fin 1024) :
    (Hand.acc0 V c t.val t.isLt).1 (ix2 p q)
      = (Hand.acc0 V c (t.val - 1) (Nat.lt_of_le_of_lt (Nat.sub_le _ _) t.isLt)).1 (ix2 p q)
        + ∑ k : Fin 1024, bk0 V c t (ix2 p k) * bk1 V c t (ix2 q k) := by
  rw [Hand.acc0_step V c t h]
  exact pay4_apply (Hand.iblk0 V c 0 t) (Hand.iblk0 V c 1 t) _ p q

theorem up_reset (c : Dev nD) (t : Fin cfg0.N) (h : t.val % 4 = 0) (p q : Fin 1024) :
    (Hand.acc0 V c t.val t.isLt).2 (ix2 p q)
      = 0 + ∑ k : Fin 1024, bk0 V c t (ix2 p k) * bk2 V c t (ix2 q k) := by
  rw [Hand.acc0_reset V c t h]
  refine (pay5_apply (Hand.iblk0 V c 0 t) (Hand.iblk0 V c 2 t) (k0_pay2 (F := Ideal)) p q).trans ?_
  rw [pay2_apply]

theorem up_step (c : Dev nD) (t : Fin cfg0.N) (h : ¬ t.val % 4 = 0) (p q : Fin 1024) :
    (Hand.acc0 V c t.val t.isLt).2 (ix2 p q)
      = (Hand.acc0 V c (t.val - 1) (Nat.lt_of_le_of_lt (Nat.sub_le _ _) t.isLt)).2 (ix2 p q)
        + ∑ k : Fin 1024, bk0 V c t (ix2 p k) * bk2 V c t (ix2 q k) := by
  rw [Hand.acc0_step V c t h]
  exact pay5_apply (Hand.iblk0 V c 0 t) (Hand.iblk0 V c 2 t) _ p q

/-! ## A point's product is one tile of the whole contraction

The product of the token block and a weight block at a point with `k = j` is tile `j` of the contraction of row `r`
of the tokens with row `n` of the weights, where the block row and block column of the point place `r` and `n`. -/

theorem tile_gate (c : Dev nD) (t : Fin cfg0.N) (j : ℕ) (hj : j < 4) (htj : t.val % 4 = j) (p q : Fin 1024)
    (r : Fin 4096) (n : Fin 11264) (hr : r.val = 1024 * (t.val / 44) + p.val) (hn : n.val = 1024 * (t.val / 4 % 11) + q.val) :
    ∑ k : Fin 1024, bk0 V c t (ix2 p k) * bk1 V c t (ix2 q k)
      = ∑ k : Fin 1024, aX V c (ix2 r (col j hj k)) * aWg V c (ix2 n (col j hj k)) :=
  Finset.sum_congr rfl fun k _ => by
    have e0 : bk0 V c t (ix2 p k) = aX V c (ix2 r (col j hj k)) :=
      blk0_apply V c t p k (ix2 r (col j hj k)) hr (by show 1024 * j + k.val = _; rw [htj])
    have e1 : bk1 V c t (ix2 q k) = aWg V c (ix2 n (col j hj k)) :=
      blk1_apply V c t q k (ix2 n (col j hj k)) hn (by show 1024 * j + k.val = _; rw [htj])
    rw [e0, e1]

theorem tile_up (c : Dev nD) (t : Fin cfg0.N) (j : ℕ) (hj : j < 4) (htj : t.val % 4 = j) (p q : Fin 1024)
    (r : Fin 4096) (n : Fin 11264) (hr : r.val = 1024 * (t.val / 44) + p.val) (hn : n.val = 1024 * (t.val / 4 % 11) + q.val) :
    ∑ k : Fin 1024, bk0 V c t (ix2 p k) * bk2 V c t (ix2 q k)
      = ∑ k : Fin 1024, aX V c (ix2 r (col j hj k)) * aWu V c (ix2 n (col j hj k)) :=
  Finset.sum_congr rfl fun k _ => by
    have e0 : bk0 V c t (ix2 p k) = aX V c (ix2 r (col j hj k)) :=
      blk0_apply V c t p k (ix2 r (col j hj k)) hr (by show 1024 * j + k.val = _; rw [htj])
    have e1 : bk2 V c t (ix2 q k) = aWu V c (ix2 n (col j hj k)) :=
      blk2_apply V c t q k (ix2 n (col j hj k)) hn (by show 1024 * j + k.val = _; rw [htj])
    rw [e0, e1]

/-! ## The accumulators at the last point of a run: the whole contraction

At a point with `k = 3` an accumulator's entry `(p, q)` is the contraction over all 4096 positions of the token row and
the weight row the entry belongs to: the four points of the run share their block row and block column and bring the
four tiles in order, starting from zero. -/

theorem acc_gate (c : Dev nD) (t : Fin cfg0.N) (ht : t.val % 4 = 3) (p q : Fin 1024)
    (r : Fin 4096) (n : Fin 11264) (hr : r.val = 1024 * (t.val / 44) + p.val) (hn : n.val = 1024 * (t.val / 4 % 11) + q.val) :
    (Hand.acc0 V c t.val t.isLt).1 (ix2 p q) = ∑ k : Fin 4096, aX V c (ix2 r k) * aWg V c (ix2 n k) := by
  have hN := lt_N t
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  have s3 := gate_step V c t (by omega) p q
  have s2 : (Hand.acc0 V c (t.val - 1) h1).1 (ix2 p q) = (Hand.acc0 V c (t.val - 1 - 1) h2).1 (ix2 p q) + _ :=
    gate_step V c ⟨t.val - 1, h1⟩ (by show ¬ (t.val - 1) % 4 = 0; omega) p q
  have s1 : (Hand.acc0 V c (t.val - 1 - 1) h2).1 (ix2 p q) = (Hand.acc0 V c (t.val - 1 - 1 - 1) h3).1 (ix2 p q) + _ :=
    gate_step V c ⟨t.val - 1 - 1, h2⟩ (by show ¬ (t.val - 1 - 1) % 4 = 0; omega) p q
  have s0 : (Hand.acc0 V c (t.val - 1 - 1 - 1) h3).1 (ix2 p q) = 0 + _ :=
    gate_reset V c ⟨t.val - 1 - 1 - 1, h3⟩ (by show (t.val - 1 - 1 - 1) % 4 = 0; omega) p q
  rw [s3, s2, s1, s0, zero_add,
    tile_gate V c t 3 (by omega) ht p q r n hr hn,
    tile_gate V c ⟨t.val - 1, h1⟩ 2 (by omega) (by show (t.val - 1) % 4 = 2; omega) p q r n
      (by show r.val = 1024 * ((t.val - 1) / 44) + p.val; omega) (by show n.val = 1024 * ((t.val - 1) / 4 % 11) + q.val; omega),
    tile_gate V c ⟨t.val - 1 - 1, h2⟩ 1 (by omega) (by show (t.val - 1 - 1) % 4 = 1; omega) p q r n
      (by show r.val = 1024 * ((t.val - 1 - 1) / 44) + p.val; omega) (by show n.val = 1024 * ((t.val - 1 - 1) / 4 % 11) + q.val; omega),
    tile_gate V c ⟨t.val - 1 - 1 - 1, h3⟩ 0 (by omega) (by show (t.val - 1 - 1 - 1) % 4 = 0; omega) p q r n
      (by show r.val = 1024 * ((t.val - 1 - 1 - 1) / 44) + p.val; omega) (by show n.val = 1024 * ((t.val - 1 - 1 - 1) / 4 % 11) + q.val; omega)]
  exact (sum_four_tiles fun k => aX V c (ix2 r k) * aWg V c (ix2 n k)).symm

theorem acc_up (c : Dev nD) (t : Fin cfg0.N) (ht : t.val % 4 = 3) (p q : Fin 1024)
    (r : Fin 4096) (n : Fin 11264) (hr : r.val = 1024 * (t.val / 44) + p.val) (hn : n.val = 1024 * (t.val / 4 % 11) + q.val) :
    (Hand.acc0 V c t.val t.isLt).2 (ix2 p q) = ∑ k : Fin 4096, aX V c (ix2 r k) * aWu V c (ix2 n k) := by
  have hN := lt_N t
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  have s3 := up_step V c t (by omega) p q
  have s2 : (Hand.acc0 V c (t.val - 1) h1).2 (ix2 p q) = (Hand.acc0 V c (t.val - 1 - 1) h2).2 (ix2 p q) + _ :=
    up_step V c ⟨t.val - 1, h1⟩ (by show ¬ (t.val - 1) % 4 = 0; omega) p q
  have s1 : (Hand.acc0 V c (t.val - 1 - 1) h2).2 (ix2 p q) = (Hand.acc0 V c (t.val - 1 - 1 - 1) h3).2 (ix2 p q) + _ :=
    up_step V c ⟨t.val - 1 - 1, h2⟩ (by show ¬ (t.val - 1 - 1) % 4 = 0; omega) p q
  have s0 : (Hand.acc0 V c (t.val - 1 - 1 - 1) h3).2 (ix2 p q) = 0 + _ :=
    up_reset V c ⟨t.val - 1 - 1 - 1, h3⟩ (by show (t.val - 1 - 1 - 1) % 4 = 0; omega) p q
  rw [s3, s2, s1, s0, zero_add,
    tile_up V c t 3 (by omega) ht p q r n hr hn,
    tile_up V c ⟨t.val - 1, h1⟩ 2 (by omega) (by show (t.val - 1) % 4 = 2; omega) p q r n
      (by show r.val = 1024 * ((t.val - 1) / 44) + p.val; omega) (by show n.val = 1024 * ((t.val - 1) / 4 % 11) + q.val; omega),
    tile_up V c ⟨t.val - 1 - 1, h2⟩ 1 (by omega) (by show (t.val - 1 - 1) % 4 = 1; omega) p q r n
      (by show r.val = 1024 * ((t.val - 1 - 1) / 44) + p.val; omega) (by show n.val = 1024 * ((t.val - 1 - 1) / 4 % 11) + q.val; omega),
    tile_up V c ⟨t.val - 1 - 1 - 1, h3⟩ 0 (by omega) (by show (t.val - 1 - 1 - 1) % 4 = 0; omega) p q r n
      (by show r.val = 1024 * ((t.val - 1 - 1 - 1) / 44) + p.val; omega) (by show n.val = 1024 * ((t.val - 1 - 1 - 1) / 4 % 11) + q.val; omega)]
  exact (sum_four_tiles fun k => aX V c (ix2 r k) * aWu V c (ix2 n k)).symm

end Cert.KernelIdeal.Val0

end
-- ==== Proof.KI.Val0.lean ====
import proofs.«112804_j30425548325397_2_alg».proof.Proof.KI.Acc
import proofs.«112804_j30425548325397_2_alg».proof.Proof.Spec
import proofs.«112804_j30425548325397_2_alg».proof.Proof.KI.Val0Acc
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- The block stored at a point with `k = 3`, entry `(p, q)`: the hidden entry at row `r`, column `n`, where
    `(r, n)` is the place of the entry in the hidden array. -/
theorem hblk_apply (c : Dev nD) (t : Fin cfg0.N) (ht : t.val % 4 = 3) (p q : Fin 1024)
    (r : Fin 4096) (n : Fin 11264) (hr : r.val = 1024 * (t.val / 44) + p.val) (hn : n.val = 1024 * (t.val / 4 % 11) + q.val) :
    Hand.hblk0 V c t (ix2 p q) = Cert.Spec.H0c (V c main_v1) (V c main_v6) (V c main_v7) r n := by
  unfold Hand.hblk0 Cert.Spec.H0c
  refine (pay6_apply _ _ p q).trans ?_
  rw [acc_gate V c t ht p q r n hr hn, acc_up V c t ht p q r n hr hn]

/-- What a point with `k = 3` writes back is its block of the hidden array. -/
theorem flushed_eq (c : Dev nD) (dat : Pipeline.Dat τ (Elt Ideal) Unit ℕ (UR sig nD τ) ℕ cfg0 c)
    (hafter : ∀ t : Fin cfg0.N, t.val % 4 = 3 → dat.after 3 t = Hand.hblk0 V c t)
    (t : Fin cfg0.N) (ht : t.val % 4 = 3) :
    dat.flushed 3 t = ((cfg0.win 3).blk t).view.read (Elt Ideal) (Cert.Spec.H0 (V c main_v1) (V c main_v6) (V c main_v7)) := by
  show (cfg0.win 3).cut (grid0.coords t) (dat.after 3 t) = _
  rw [hafter t ht]
  obtain ⟨-, -, -, -, -, -, e0, e1⟩ := idx_facts t
  funext y
  obtain ⟨p, q, rfl⟩ : ∃ (p : Fin 1024) (q : Fin 1024), y = ix2 p q := ⟨y 0, y 1, eq_ix2 y⟩
  show Hand.hblk0 V c t (ix2 p q)
    = Cert.Spec.H0c (V c main_v1) (V c main_v6) (V c main_v7) ((((cfg0.win 3).blk t).view.emb (ix2 p q)) 0) ((((cfg0.win 3).blk t).view.emb (ix2 p q)) 1)
  exact hblk_apply V c t ht p q _ _
    (by show win0_3.index t (0 : Fin 2) * 1024 + 1 * p.val = _; omega)
    (by show win0_3.index t (1 : Fin 2) * 1024 + 1 * q.val = _; omega)

/-- THE HIDDEN ARRAY after the region: entry `(r, n)` is `silu` of the contraction of token row `r` with gate row `n`
    times the contraction of the same token row with up row `n`. -/
theorem final0 (c : Dev nD) (dat : Pipeline.Dat τ (Elt Ideal) Unit ℕ (UR sig nD τ) ℕ cfg0 c)
    (hA : ∀ w, dat.A w = V c (Pipeline.arrRef spec0 w))
    (hafter : ∀ t : Fin cfg0.N, t.val % 4 = 3 → dat.after 3 t = Hand.hblk0 V c t) :
    dat.arrAt 3 cfg0.N = Cert.Spec.H0 (V c main_v1) (V c main_v6) (V c main_v7) :=
  dat.arrAt_eq_of_cover 3 (Cert.Spec.H0 (V c main_v1) (V c main_v6) (V c main_v7))
    (fun t hf => flushed_eq V c dat hafter t ((flush0_3 t).mp hf)) cover3

end Cert.KernelIdeal.Val0

end
-- ==== Proof.KI.Val1Pay.lean ====
/-
  The two payloads of the down-projection kernel read at one entry, over the extended reals: the restart block is
  zero everywhere, and one step adds to the carried block, at entry (p, q), the products of row p of the hidden tile
  with row q of the weight tile over the tile's 512 positions.
-/
import proofs.«112804_j30425548325397_2_alg».proof.Proof.KI.Acc
import proofs.«112804_j30425548325397_2_alg».proof.Proof.Spec
import Idealize.ShloMosaic.Lib.Pipeline.Value
import Idealize.ShloMosaic.Lib.ValueIdx
import Idealize.ShloMosaic.PureOps.Ideal.Laws

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen
open scoped BigOperators

/-- The restart block is zero at every entry. -/
theorem pay1_apply (p q : Fin 1024) : k1_pay1 (F := Ideal) (ix2 p q) = 0 := by
  unfold k1_pay1
  simp only [shapeCast_self]
  exact Ideal.ofBits_zero_f32

theorem lhsK_0 (i : S1024x1024.Idx) (k : (dot_S1024x512_S1024x512_S1024x1024_1_1_0_0_n_n).contr.Idx) :
    ((dot_S1024x512_S1024x512_S1024x1024_1_1_0_0_n_n).lhsIdx i k 0).val = (i 0).val := by
  unfold DotDims.lhsIdx
  rw [dif_neg (show ¬(0 : Fin S1024x512.rank) ∈ (dot_S1024x512_S1024x512_S1024x1024_1_1_0_0_n_n).lhsBatch by decide),
    dif_pos (show (0 : Fin S1024x512.rank) ∈ (dot_S1024x512_S1024x512_S1024x1024_1_1_0_0_n_n).lhsNonContracting by decide)]
  rfl

theorem rhsK_0 (i : S1024x1024.Idx) (k : (dot_S1024x512_S1024x512_S1024x1024_1_1_0_0_n_n).contr.Idx) :
    ((dot_S1024x512_S1024x512_S1024x1024_1_1_0_0_n_n).rhsIdx i k 0).val = (i 1).val := by
  unfold DotDims.rhsIdx
  rw [dif_neg (show ¬(0 : Fin S1024x512.rank) ∈ (dot_S1024x512_S1024x512_S1024x1024_1_1_0_0_n_n).rhsBatch by decide),
    dif_pos (show (0 : Fin S1024x512.rank) ∈ (dot_S1024x512_S1024x512_S1024x1024_1_1_0_0_n_n).rhsNonContracting by decide)]
  rfl

/-- One step at entry (p, q): the carried value plus the 512 products of the two tiles' rows p and q. -/
theorem pay2_apply (x w : Vec Ideal S1024x512 .bf16) (s : Vec Ideal S1024x1024 .f32) (p q : Fin 1024) :
    k1_pay2 x w s (ix2 p q) = s (ix2 p q) + ∑ k : Fin 512, x (ix2 p k) * w (ix2 q k) := by
  unfold k1_pay2
  simp only [shapeCast_self]
  show s (ix2 p q) + _ = _
  congr 1
  refine (Ideal.matmul_constant_zero_apply (φ₁ := FTy.bf16) (φ₂ := FTy.bf16) dot_S1024x512_S1024x512_S1024x1024_1_1_0_0_n_n none x w (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : (dot_S1024x512_S1024x512_S1024x1024_1_1_0_0_n_n).lhsIdx (ix2 p q) ((contrEquiv1 dot_S1024x512_S1024x512_S1024x1024_1_1_0_0_n_n 512 rfl rfl).symm k) = ix2 p k :=
    funext fun a => Fin.ext (by
      match a with
      | ⟨0, _⟩ => exact lhsK_0 _ _
      | ⟨1, _⟩ => exact ((dot_S1024x512_S1024x512_S1024x1024_1_1_0_0_n_n).lhsIdx_val_of_single rfl _ _).trans hk)
  have er : (dot_S1024x512_S1024x512_S1024x1024_1_1_0_0_n_n).rhsIdx (ix2 p q) ((contrEquiv1 dot_S1024x512_S1024x512_S1024x1024_1_1_0_0_n_n 512 rfl rfl).symm k) = ix2 q k :=
    funext fun a => Fin.ext (by
      match a with
      | ⟨0, _⟩ => exact rhsK_0 _ _
      | ⟨1, _⟩ => exact ((dot_S1024x512_S1024x512_S1024x1024_1_1_0_0_n_n).rhsIdx_val_of_single rfl _ _).trans hk)
  rw [el, er]

end Cert.KernelIdeal.Val1

end
-- ==== Proof.KI.Val1Blk.lean ====
/-
  Where the down-projection kernel's blocks sit. At grid point t = 88·m + 22·n + k (m, n < 4, k < 22) the hidden
  window holds rows 1024·m … of columns 512·k …, the weight window rows 1024·n … of columns 512·k …, and the result
  window is block (m, n) of the 4096 × 4096 result. The block indices are decided once over the 352 points; an entry
  of a block is then the array's entry at block index × block size + the coordinate inside the block.
-/
import proofs.«112804_j30425548325397_2_alg».proof.Proof.KI.Acc
import proofs.«112804_j30425548325397_2_alg».proof.Proof.Spec
import proofs.«112804_j30425548325397_2_alg».proof.Proof.KI.Val1Pay
import Idealize.ShloMosaic.Lib.Pipeline.Value
import Idealize.ShloMosaic.Lib.ValueIdx
import Idealize.ShloMosaic.PureOps.Ideal.Laws

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- The three windows' block indices at every grid point. -/
theorem idx_facts : ∀ t : Fin cfg1.N,
    win1_0.index t (0 : Fin 2) = t.val / 88 ∧ win1_0.index t (1 : Fin 2) = t.val % 22
    ∧ win1_1.index t (0 : Fin 2) = t.val / 22 % 4 ∧ win1_1.index t (1 : Fin 2) = t.val % 22
    ∧ win1_2.index t (0 : Fin 2) = t.val / 88 ∧ win1_2.index t (1 : Fin 2) = t.val / 22 % 4 :=
  (by decide +kernel : ∀ t : Fin grid1.N,
    win1_0.index t (0 : Fin 2) = t.val / 88 ∧ win1_0.index t (1 : Fin 2) = t.val % 22
    ∧ win1_1.index t (0 : Fin 2) = t.val / 22 % 4 ∧ win1_1.index t (1 : Fin 2) = t.val % 22
    ∧ win1_2.index t (0 : Fin 2) = t.val / 88 ∧ win1_2.index t (1 : Fin 2) = t.val / 22 % 4)

/-- The hidden tile and the weight tile the kernel is handed at grid point t. -/
abbrev hid (c : Dev nD) (t : Fin cfg1.N) : Vec Ideal S1024x512 .bf16 := Hand.iblk1 V c 0 t
abbrev wgt (c : Dev nD) (t : Fin cfg1.N) : Vec Ideal S1024x512 .bf16 := Hand.iblk1 V c 1 t
/-- The hidden array and the padded down weights as the region finds them. -/
abbrev Hh (c : Dev nD) : Cert.Spec.SDp.Idx → EReal := V c main_v10
abbrev Wd (c : Dev nD) : Cert.Spec.SDp.Idx → EReal := V c main_v9

/-- The hidden tile at point t, entry (p, k), is the hidden array's entry (1024·(t/88) + p, 512·(t%22) + k). -/
theorem hid_blk (c : Dev nD) (t : Fin cfg1.N) (p : Fin 1024) (k : Fin 512) (i : Cert.Spec.SDp.Idx)
    (h0 : (i 0).val = t.val / 88 * 1024 + p.val) (h1 : (i 1).val = t.val % 22 * 512 + k.val) :
    hid V c t (ix2 p k) = Hh V c i := by
  obtain ⟨e0, e1, -, -, -, -⟩ := idx_facts t
  show V c main_v10 (((cfg1.win 0).blk t).view.emb (ix2 p k)) = V c main_v10 i
  congr 1
  funext a
  apply Fin.ext
  match a with
  | ⟨0, _⟩ => show win1_0.index t (0 : Fin 2) * 1024 + 1 * p.val = (i 0).val; omega
  | ⟨1, _⟩ => show win1_0.index t (1 : Fin 2) * 512 + 1 * k.val = (i 1).val; omega

/-- The weight tile at point t, entry (q, k), is the weight array's entry (1024·((t/22)%4) + q, 512·(t%22) + k). -/
theorem wgt_blk (c : Dev nD) (t : Fin cfg1.N) (q : Fin 1024) (k : Fin 512) (i : Cert.Spec.SDp.Idx)
    (h0 : (i 0).val = t.val / 22 % 4 * 1024 + q.val) (h1 : (i 1).val = t.val % 22 * 512 + k.val) :
    wgt V c t (ix2 q k) = Wd V c i := by
  obtain ⟨-, -, e0, e1, -, -⟩ := idx_facts t
  show V c main_v9 (((cfg1.win 1).blk t).view.emb (ix2 q k)) = V c main_v9 i
  congr 1
  funext a
  apply Fin.ext
  match a with
  | ⟨0, _⟩ => show win1_1.index t (0 : Fin 2) * 1024 + 1 * q.val = (i 0).val; omega
  | ⟨1, _⟩ => show win1_1.index t (1 : Fin 2) * 512 + 1 * k.val = (i 1).val; omega

end Cert.KernelIdeal.Val1

end
-- ==== Proof.LibTileSum.lean ====
/-
  Regrouping a long sum into consecutive tiles.

  A sum over the first b·a naturals is the sum, over the a consecutive tiles of b positions each, of the sums inside
  the tiles: position b·s + k is position k of tile s. Only associativity and commutativity of the addition are used,
  so the statement holds in any additive commutative monoid — in particular over the extended reals, where no
  finiteness is needed.
-/
import Mathlib.Algebra.BigOperators.Fin
import Mathlib.Algebra.BigOperators.Intervals

open scoped BigOperators

namespace Cert.TileSum

variable {M : Type*} [AddCommMonoid M]

/-- The sums of `a` consecutive tiles of `b` positions add up to the sum over the first `b * a` positions. -/
theorem sum_tiles (f : ℕ → M) (b : ℕ) : ∀ a : ℕ,
    ∑ s ∈ Finset.range a, ∑ k : Fin b, f (b * s + k.val) = ∑ n ∈ Finset.range (b * a), f n
  | 0 => by simp
  | a + 1 => by
    rw [Finset.sum_range_succ, sum_tiles f b a, Nat.mul_succ, Finset.sum_range_add,
      Fin.sum_univ_eq_sum_range (fun k => f (b * a + k)) b]

/-- A sum over `Fin N` with `N = b * a`, of a function that a function `f` of the naturals extends, is the sum of
    the tiles' sums of `f`. -/
theorem sum_eq_tiles (N a b : ℕ) (hN : N = b * a) (g : Fin N → M) (f : ℕ → M) (hf : ∀ k : Fin N, f k.val = g k) :
    ∑ k : Fin N, g k = ∑ s ∈ Finset.range a, ∑ k : Fin b, f (b * s + k.val) := by
  rw [sum_tiles, ← hN, ← Fin.sum_univ_eq_sum_range]
  exact Finset.sum_congr rfl fun k _ => (hf k).symm

end Cert.TileSum
-- ==== Proof.KI.Val1Acc.lean ====
/-
  The accumulator of the down-projection kernel at the last tile of a run. A run is 22 consecutive grid points
  22·v … 22·v + 21 (v = 4·m + n): the accumulator restarts from zero at the first and every point adds, at entry
  (p, q), the 512 products of its hidden tile's row p with its weight tile's row q. After the 22nd point the entry is
  therefore the sum of the 22 tiles' partial sums, and tile s covers positions 512·s … 512·s + 511 of the hidden
  axis: the 22 tiles regroup into the one sum over all 11264 positions, row 1024·m + p of the hidden array against
  row 1024·n + q of the weights.
-/
import proofs.«112804_j30425548325397_2_alg».proof.Proof.KI.Acc
import proofs.«112804_j30425548325397_2_alg».proof.Proof.Spec
import proofs.«112804_j30425548325397_2_alg».proof.Proof.KI.Val1Blk
import proofs.«112804_j30425548325397_2_alg».proof.Proof.LibTileSum
import Idealize.ShloMosaic.Lib.Pipeline.Value
import Idealize.ShloMosaic.Lib.ValueIdx
import Idealize.ShloMosaic.PureOps.Ideal.Laws

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- What grid point n adds at an entry: the 512 products of its two tiles' rows (zero past the grid). -/
def tile (c : Dev nD) (n : ℕ) (i : S1024x1024.Idx) : EReal :=
  if h : n < cfg1.N then ∑ k : Fin 512, hid V c ⟨n, h⟩ (ix2 (i 0) k) * wgt V c ⟨n, h⟩ (ix2 (i 1) k) else 0

/-- The restart value at point n and the step at point n, as the fold takes them. -/
abbrev rst (c : Dev nD) (n : ℕ) (h : n < cfg1.N) : S1024x1024.Idx → EReal :=
  k1_pay2 (Hand.iblk1 V c 0 ⟨n, h⟩) (Hand.iblk1 V c 1 ⟨n, h⟩) (k1_pay1 (F := Ideal))
abbrev stp (c : Dev nD) (n : ℕ) (h : n < cfg1.N) (a : S1024x1024.Idx → EReal) : S1024x1024.Idx → EReal :=
  k1_pay2 (Hand.iblk1 V c 0 ⟨n, h⟩) (Hand.iblk1 V c 1 ⟨n, h⟩) a

/-- The accumulator at any point is the fold over its run so far. -/
theorem acc_eq_fold (c : Dev nD) (t : ℕ) (ht : t < cfg1.N) (h' : 22 * (t / 22) + t % 22 < cfg1.N) :
    Hand.acc1 V c t ht = Pipeline.accAt (rst V c) (stp V c) (22 * (t / 22)) (t % 22) h' :=
  Pipeline.eq_accAt_of_mod (Hand.acc1 V c) 22 (rst V c) (stp V c)
    (fun n h hm => Hand.acc1_reset V c ⟨n, h⟩ hm)
    (fun n h hm => Hand.acc1_step V c ⟨n + 1, h⟩ hm)
    (by decide) t ht h'

/-- The restart value at an entry: zero plus the point's products. -/
theorem rst_apply (c : Dev nD) (n : ℕ) (h : n < cfg1.N) (i : S1024x1024.Idx) :
    rst V c n h i = 0 + tile V c n i := by
  obtain ⟨p, q, rfl⟩ : ∃ (p q : Fin 1024), i = ix2 p q := ⟨i 0, i 1, eq_ix2 i⟩
  unfold tile
  rw [dif_pos h]
  refine (pay2_apply (Hand.iblk1 V c 0 ⟨n, h⟩) (Hand.iblk1 V c 1 ⟨n, h⟩) (k1_pay1 (F := Ideal)) p q).trans ?_
  rw [pay1_apply]

/-- The step at an entry: what was carried plus the point's products. -/
theorem stp_apply (c : Dev nD) (n : ℕ) (h : n < cfg1.N) (a : S1024x1024.Idx → EReal) (i : S1024x1024.Idx) :
    stp V c n h a i = a i + tile V c n i := by
  obtain ⟨p, q, rfl⟩ : ∃ (p q : Fin 1024), i = ix2 p q := ⟨i 0, i 1, eq_ix2 i⟩
  unfold tile
  rw [dif_pos h]
  exact pay2_apply (Hand.iblk1 V c 0 ⟨n, h⟩) (Hand.iblk1 V c 1 ⟨n, h⟩) a p q

/-- After the last point of a run the accumulator is the sum of the run's 22 tiles. -/
theorem acc_last (c : Dev nD) (t : Fin cfg1.N) (hm : t.val % 22 = 21) (i : S1024x1024.Idx) :
    Hand.acc1 V c t.val t.isLt i = ∑ s ∈ Finset.range 22, tile V c (22 * (t.val / 22) + s) i := by
  have hN : cfg1.N = 352 := N_1
  have ht : t.val < 352 := hN ▸ t.isLt
  have h' : 22 * (t.val / 22) + t.val % 22 < cfg1.N := lt_of_lt_of_eq (by omega : _ < 352) hN.symm
  rw [acc_eq_fold V c t.val t.isLt h']
  have h21 : 22 * (t.val / 22) + 21 < cfg1.N := lt_of_lt_of_eq (by omega : _ < 352) hN.symm
  have e : Pipeline.accAt (rst V c) (stp V c) (22 * (t.val / 22)) (t.val % 22) h'
      = Pipeline.accAt (rst V c) (stp V c) (22 * (t.val / 22)) 21 h21 := by
    have key : ∀ (j : ℕ) (hj : 22 * (t.val / 22) + j < cfg1.N), j = 21 →
        Pipeline.accAt (rst V c) (stp V c) (22 * (t.val / 22)) j hj
          = Pipeline.accAt (rst V c) (stp V c) (22 * (t.val / 22)) 21 h21 := by
      intro j hj e; subst e; rfl
    exact key _ _ hm
  rw [e]
  refine (Pipeline.accAt_add_apply (ι := S1024x1024.Idx) (β := EReal) (rst V c) (stp V c) (fun _ => 0) (tile V c)
    (22 * (t.val / 22)) 21 (fun h i => rst_apply V c _ h i) (fun n h a i _ _ => stp_apply V c n h a i)
    21 (le_refl _) h21 i).trans ?_
  exact zero_add _

end Cert.KernelIdeal.Val1

end
-- ==== Proof.KI.Val1Sum.lean ====
/-
  The 22 tiles of a run regrouped. Tile s of the run of block (m, n) adds, at entry (p, q), the products over
  positions 512·s … 512·s + 511 of row 1024·m + p of the hidden array with row 1024·n + q of the weights; the
  22 tiles are consecutive and fill the 11264 positions, so their sums add up to the one contraction.
-/
import proofs.«112804_j30425548325397_2_alg».proof.Proof.KI.Acc
import proofs.«112804_j30425548325397_2_alg».proof.Proof.Spec
import proofs.«112804_j30425548325397_2_alg».proof.Proof.KI.Val1Acc
import Idealize.ShloMosaic.Lib.Pipeline.Value
import Idealize.ShloMosaic.Lib.ValueIdx
import Idealize.ShloMosaic.PureOps.Ideal.Laws

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

/-- Position n of the contraction of row r of the hidden array with row j of the weights (zero past the axis). -/
def term (Hh Wd : Cert.Spec.SDp.Idx → EReal) (r j : Fin 4096) (n : ℕ) : EReal :=
  if h : n < 11264 then Hh (ix2 r ⟨n, h⟩) * Wd (ix2 j ⟨n, h⟩) else 0

/-- Tile s of run v at entry (p, q): positions 512·s … 512·s + 511 of rows r and j. -/
theorem tile_eq (c : Dev nD) (v s : ℕ) (hv : v < 16) (hs : s < 22) (p q : Fin 1024) (r j : Fin 4096)
    (hr : r.val = v / 4 * 1024 + p.val) (hj : j.val = v % 4 * 1024 + q.val) :
    tile V c (22 * v + s) (ix2 p q) = ∑ k : Fin 512, term (Hh V c) (Wd V c) r j (512 * s + k.val) := by
  have hN : cfg1.N = 352 := N_1
  have hn : 22 * v + s < cfg1.N := lt_of_lt_of_eq (by omega : _ < 352) hN.symm
  unfold tile
  rw [dif_pos hn]
  refine Finset.sum_congr rfl fun k _ => ?_
  have hk : 512 * s + k.val < 11264 := by have := k.isLt; omega
  unfold term
  rw [dif_pos hk]
  show hid V c ⟨22 * v + s, hn⟩ (ix2 p k) * wgt V c ⟨22 * v + s, hn⟩ (ix2 q k)
    = Hh V c (ix2 r ⟨512 * s + k.val, hk⟩) * Wd V c (ix2 j ⟨512 * s + k.val, hk⟩)
  exact congrArg₂ (· * ·)
    (hid_blk V c ⟨22 * v + s, hn⟩ p k (ix2 r ⟨512 * s + k.val, hk⟩)
      (by show r.val = (22 * v + s) / 88 * 1024 + p.val; omega)
      (by show 512 * s + k.val = (22 * v + s) % 22 * 512 + k.val; omega))
    (wgt_blk V c ⟨22 * v + s, hn⟩ q k (ix2 j ⟨512 * s + k.val, hk⟩)
      (by show j.val = (22 * v + s) / 22 % 4 * 1024 + q.val; omega)
      (by show 512 * s + k.val = (22 * v + s) % 22 * 512 + k.val; omega))

/-- The contraction over the 11264 positions is the sum of its 22 consecutive tiles of 512. -/
theorem O1c_tiles (H W : Cert.Spec.SDp.Idx → EReal) (r j : Fin 4096) :
    Cert.Spec.O1c H W r j = ∑ s ∈ Finset.range 22, ∑ k : Fin 512, term H W r j (512 * s + k.val) := by
  unfold Cert.Spec.O1c
  exact Cert.TileSum.sum_eq_tiles 11264 22 512 rfl (fun i : Fin 11264 => H (ix2 r i) * W (ix2 j i))
    (term H W r j) (fun k => by unfold term; rw [dif_pos k.isLt])

/-- The run's 22 tiles add up to the whole contraction. -/
theorem run_sum (c : Dev nD) (v : ℕ) (hv : v < 16) (p q : Fin 1024) (r j : Fin 4096)
    (hr : r.val = v / 4 * 1024 + p.val) (hj : j.val = v % 4 * 1024 + q.val) :
    ∑ s ∈ Finset.range 22, tile V c (22 * v + s) (ix2 p q) = Cert.Spec.O1c (Hh V c) (Wd V c) r j := by
  refine Eq.trans ?_ (O1c_tiles (Hh V c) (Wd V c) r j).symm
  exact Finset.sum_congr rfl fun s hs => tile_eq V c v s hv (Finset.mem_range.mp hs) p q r j hr hj

/-- The block the kernel stores at the last point of a run, at entry (p, q): the contraction of row
    1024·(t/88) + p of the hidden array with row 1024·((t/22)%4) + q of the weights. -/
theorem oblk_apply (c : Dev nD) (t : Fin cfg1.N) (hm : t.val % 22 = 21) (p q : Fin 1024) (r j : Fin 4096)
    (hr : r.val = t.val / 88 * 1024 + p.val) (hj : j.val = t.val / 22 % 4 * 1024 + q.val) :
    Hand.oblk1 V c t (ix2 p q) = Cert.Spec.O1c (Hh V c) (Wd V c) r j := by
  have hN : cfg1.N = 352 := N_1
  have ht : t.val < 352 := hN ▸ t.isLt
  show Hand.acc1 V c t.val t.isLt (ix2 p q) = _
  rw [acc_last V c t hm]
  exact run_sum V c (t.val / 22) (by omega) p q r j (by omega) (by omega)

end Cert.KernelIdeal.Val1

end
-- ==== Proof.KI.Val1.lean ====
/-
  The result array of the down-projection kernel. The result window's block (m, n) is written back at the last
  point of its run, 88·m + 22·n + 21, holding at entry (p, q) the contraction of hidden row 1024·m + p with weight
  row 1024·n + q: every write-back is its block of the one array O[r, j] = ∑ᵢ H[r, i]·Wd[j, i], and the sixteen
  blocks cover the 4096 × 4096 result, so that array is what the region leaves.
-/
import proofs.«112804_j30425548325397_2_alg».proof.Proof.KI.Acc
import proofs.«112804_j30425548325397_2_alg».proof.Proof.Spec
import proofs.«112804_j30425548325397_2_alg».proof.Proof.KI.Val1Sum
import Idealize.ShloMosaic.Lib.Pipeline.Value
import Idealize.ShloMosaic.Lib.ValueIdx
import Idealize.ShloMosaic.PureOps.Ideal.Laws

noncomputable section

namespace Cert.KernelIdeal.Val1

open Idealize.ShloMosaic Idealize.ShloMosaic.TcCoe Idealize.ShloMosaic.ValueIdx
open Idealize.SL Idealize.SL.Sem
open Cert.KernelIdeal Cert.KernelIdeal.Gen
open scoped BigOperators

open Idealize.ShloMosaic.Pipeline (Dat)

variable (V : (c : Dev nD) → (b : Ref sig .tc) → Buf (Elt Ideal) ((c : Thread nD τ).loc b))

/-- What the last point of a run stores, entry by entry, is the down projection read where the block sits. -/
theorem oblk_eq (c : Dev nD) (t : Fin cfg1.N) (hm : t.val % 22 = 21) (y : S1024x1024.Idx) :
    Hand.oblk1 V c t y = Cert.Spec.O1 (V c main_v10) (V c main_v9) (((cfg1.win 2).blk t).view.emb y) := by
  obtain ⟨-, -, -, -, e0, e1⟩ := idx_facts t
  obtain ⟨p, q, rfl⟩ : ∃ (p q : Fin 1024), y = ix2 p q := ⟨y 0, y 1, eq_ix2 y⟩
  unfold Cert.Spec.O1
  exact oblk_apply V c t hm p q _ _
    (by show win1_2.index t (0 : Fin 2) * 1024 + 1 * p.val = t.val / 88 * 1024 + p.val; omega)
    (by show win1_2.index t (1 : Fin 2) * 1024 + 1 * q.val = t.val / 22 % 4 * 1024 + q.val; omega)

/-- Every write-back is its block of the down projection. -/
theorem flushed_eq (c : Dev nD) (dat : Dat τ (Elt Ideal) Unit ℕ (UR sig nD τ) ℕ cfg1 c)
    (hafter : ∀ t : Fin cfg1.N, t.val % 22 = 21 → dat.after 2 t = Hand.oblk1 V c t)
    (t : Fin cfg1.N) (hf : (cfg1.win 2).flush t = true) :
    dat.flushed 2 t = ((cfg1.win 2).blk t).view.read (Elt Ideal) (Cert.Spec.O1 (V c main_v10) (V c main_v9)) := by
  have hm : t.val % 22 = 21 := (flush1_2 t).mp hf
  show (cfg1.win 2).cut (grid1.coords t) (dat.after 2 t) = _
  rw [hafter t hm]
  funext y
  exact oblk_eq V c t hm y

/-- An entry of the result is in point t's block iff each coordinate is in the block's range on its axis. -/
theorem mem_blk (t : Fin cfg1.N) (i : S4096x4096.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v11).slice (win1_2.rect t)).set ↔ _
  rw [View.set_slice_whole, Rect.mem_set_unit]
  exact Iff.rfl

/-- Entry (r, j) lies in the block written back at point 22·(4·(r/1024) + j/1024) + 21. -/
theorem cover (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  have hN : cfg1.N = 352 := N_1
  obtain ⟨tv, htv⟩ : ∃ tv : ℕ, tv = 22 * ((i 0).val / 1024 * 4 + (i 1).val / 1024) + 21 := ⟨_, rfl⟩
  have ht : tv < cfg1.N := lt_of_lt_of_eq (by omega : _ < 352) hN.symm
  refine ⟨⟨tv, ht⟩, (flush1_2 ⟨tv, ht⟩).mpr (by show tv % 22 = 21; omega), ?_⟩
  rw [mem_blk]
  obtain ⟨-, -, -, -, e0, e1⟩ := idx_facts ⟨tv, ht⟩
  have e0' : win1_2.index ⟨tv, ht⟩ (0 : Fin 2) = tv / 88 := e0
  have e1' : win1_2.index ⟨tv, ht⟩ (1 : Fin 2) = tv / 22 % 4 := e1
  intro a
  match a with
  | ⟨0, _⟩ =>
    show win1_2.index ⟨tv, ht⟩ (0 : Fin 2) * 1024 ≤ (i 0).val ∧ (i 0).val < win1_2.index ⟨tv, ht⟩ (0 : Fin 2) * 1024 + 1024
    rw [e0']; omega
  | ⟨1, _⟩ =>
    show win1_2.index ⟨tv, ht⟩ (1 : Fin 2) * 1024 ≤ (i 1).val ∧ (i 1).val < win1_2.index ⟨tv, ht⟩ (1 : Fin 2) * 1024 + 1024
    rw [e1']; omega

/-- THE RESULT ARRAY after the region: the down projection of the hidden array and the padded weights the region
    finds. -/
theorem final1 (c : Dev nD) (dat : Dat τ (Elt Ideal) Unit ℕ (UR sig nD τ) ℕ cfg1 c)
    (hA : ∀ w, dat.A w = V c (Pipeline.arrRef spec1 w))
    (hafter : ∀ t : Fin cfg1.N, t.val % 22 = 21 → dat.after 2 t = Hand.oblk1 V c t) :
    dat.arrAt 2 cfg1.N = Cert.Spec.O1 (V c main_v10) (V c main_v9) :=
  dat.arrAt_eq_of_cover 2 (Cert.Spec.O1 (V c main_v10) (V c main_v9)) (fun t hf => flushed_eq V c dat hafter t hf) cover

end Cert.KernelIdeal.Val1

end
-- ==== Proof.KI.HostStages.lean ====
/-
  What the host operations before and after the two kernels leave in the arrays the kernels read and the program
  returns, at exact (extended real) values.

  Before the kernels: the tokens `[2, 2048, 4096]` are flattened to rows `[4096, 4096]`; the stacked weights
  `[22016, 4096]` are cut into the gate rows `0 … 11007` and the up rows `11008 … 22015`, each padded with 256 zero
  rows to `[11264, 4096]`; the down weights `[4096, 11008]` are padded with 256 zero columns to `[4096, 11264]`. A
  change of float format is the identity at exact values, and the padding value, the integer `0` converted, is `0`.
  After the kernels: the rows `[4096, 4096]` are split back into `[2, 2048, 4096]`.

  Each stretch of operations is first read at one buffer over an arbitrary valuation; the stretches are then chained from
  the launch contents, and each composed term is read at literal coordinates.
-/
import proofs.«112804_j30425548325397_2_alg».proof.Proof.Gen.KernelIdeal.Regions
import proofs.«112804_j30425548325397_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx
open scoped BigOperators

/-! ## Each stretch of host operations, read at one buffer over a variable valuation -/

theorem s0_v1 (W : Valuation τ sig (Elt Ideal)) :
    StableHlo.after (Gen.hostOps0 (F := Ideal)) W (Proc.devRef .tc main_v1)
      = (truncf .bf16 (shapeCast S4096x4096 (W (Proc.devRef .tc main_arg0)) shapeCasts_S2x2048x4096_S4096x4096) bitsLt_bf16_f32 : FVec Ideal S4096x4096 .bf16) := by
  dsimp only [Gen.hostOps0]
  after_results
  rfl

theorem s0_v3 (W : Valuation τ sig (Elt Ideal)) :
    StableHlo.after (Gen.hostOps0 (F := Ideal)) W (Proc.devRef .tc main_v3)
      = (truncf .bf16 (extractStridedSlice S11008x4096 ![0, 0] (W (Proc.devRef .tc main_arg1)) slices_S22016x4096_S11008x4096_0_0) bitsLt_bf16_f32 : FVec Ideal S11008x4096 .bf16) := by
  dsimp only [Gen.hostOps0]
  after_results

theorem s0_v5 (W : Valuation τ sig (Elt Ideal)) :
    StableHlo.after (Gen.hostOps0 (F := Ideal)) W (Proc.devRef .tc main_v5)
      = (truncf .bf16 (extractStridedSlice S11008x4096 ![11008, 0] (W (Proc.devRef .tc main_arg1)) slices_S22016x4096_S11008x4096_11008_0) bitsLt_bf16_f32 : FVec Ideal S11008x4096 .bf16) := by
  dsimp only [Gen.hostOps0]
  after_results

theorem s0_c (W : Valuation τ sig (Elt Ideal)) :
    StableHlo.after (Gen.hostOps0 (F := Ideal)) W (Proc.devRef .tc main_c)
      = (constantI S_ 32 0#32 : IVec S_ 32) := by
  dsimp only [Gen.hostOps0]
  after_results

theorem s1_v6 (W : Valuation τ sig (Elt Ideal)) :
    StableHlo.after (Gen.hostOps0_1 (F := Ideal)) W (Proc.devRef .tc main_v6)
      = (pad S11264x4096 ![0, 0] ![256, 0] ![0, 0] (W (Proc.devRef .tc main_v3) : FVec Ideal S11008x4096 .bf16)
          (sitofp .bf16 (W (Proc.devRef .tc main_c) : IVec S_ 32) : FVec Ideal S_ .bf16)
          pads_S11008x4096_S11264x4096_02560_000 h_S_ : FVec Ideal S11264x4096 .bf16) := by
  dsimp only [Gen.hostOps0_1]
  after_results
  rfl

theorem s2_c0 (W : Valuation τ sig (Elt Ideal)) :
    StableHlo.after (Gen.hostOps0_2 (F := Ideal)) W (Proc.devRef .tc main_c_0)
      = (constantI S_ 32 0#32 : IVec S_ 32) := by
  dsimp only [Gen.hostOps0_2]
  after_results

theorem s3_v7 (W : Valuation τ sig (Elt Ideal)) :
    StableHlo.after (Gen.hostOps0_3 (F := Ideal)) W (Proc.devRef .tc main_v7)
      = (pad S11264x4096 ![0, 0] ![256, 0] ![0, 0] (W (Proc.devRef .tc main_v5) : FVec Ideal S11008x4096 .bf16)
          (sitofp .bf16 (W (Proc.devRef .tc main_c_0) : IVec S_ 32) : FVec Ideal S_ .bf16)
          pads_S11008x4096_S11264x4096_02560_000 h_S_ : FVec Ideal S11264x4096 .bf16) := by
  dsimp only [Gen.hostOps0_3]
  after_results
  rfl

theorem s4_v8 (W : Valuation τ sig (Elt Ideal)) :
    StableHlo.after (Gen.hostOps0_4 (F := Ideal)) W (Proc.devRef .tc main_v8)
      = (truncf .bf16 (W (Proc.devRef .tc main_arg2) : FVec Ideal S4096x11008 .f32) bitsLt_bf16_f32 : FVec Ideal S4096x11008 .bf16) := by
  dsimp only [Gen.hostOps0_4]
  after_results

theorem s4_c1 (W : Valuation τ sig (Elt Ideal)) :
    StableHlo.after (Gen.hostOps0_4 (F := Ideal)) W (Proc.devRef .tc main_c_1)
      = (constantI S_ 32 0#32 : IVec S_ 32) := by
  dsimp only [Gen.hostOps0_4]
  after_results

theorem s5_v9 (W : Valuation τ sig (Elt Ideal)) :
    StableHlo.after (Gen.hostOps0_5 (F := Ideal)) W (Proc.devRef .tc main_v9)
      = (pad S4096x11264 ![0, 0] ![0, 256] ![0, 0] (W (Proc.devRef .tc main_v8) : FVec Ideal S4096x11008 .bf16)
          (sitofp .bf16 (W (Proc.devRef .tc main_c_1) : IVec S_ 32) : FVec Ideal S_ .bf16)
          pads_S4096x11008_S4096x11264_000_02560 h_S_ : FVec Ideal S4096x11264 .bf16) := by
  dsimp only [Gen.hostOps0_5]
  after_results
  rfl

theorem s9_v12 (W : Valuation τ sig (Elt Ideal)) :
    StableHlo.after (Gen.hostOps2 (F := Ideal)) W (Proc.devRef .tc main_v12)
      = (shapeCast S2x2048x4096 (W (Proc.devRef .tc main_v11) : FVec Ideal S4096x4096 .f32) shapeCasts_S4096x4096_S2x2048x4096 : FVec Ideal S2x2048x4096 .f32) := by
  dsimp only [Gen.hostOps2]
  after_results
  rfl

/-! ## The layout operations read at literal coordinates -/

/-- Row `r` of the tokens flattened to `[4096, 4096]` is token `(r / 2048, r % 2048)`. -/
theorem flat_read {α : Type} (x : S2x2048x4096.Idx → α) (h : S2x2048x4096.ShapeCasts S4096x4096) (r k : Fin 4096) :
    shapeCast S4096x4096 x h (ix2 r k)
      = x (ix3 (⟨r.val / 2048, by omega⟩ : Fin 2) (⟨r.val % 2048, by omega⟩ : Fin 2048) k) := by
  refine shapeCast_apply x h (ix2 r k) _ ?_
  rw [Shape.rowMajor_val_three, Shape.rowMajor_val_two]
  show (r.val / 2048 * 2048 + r.val % 2048) * 4096 + k.val = r.val * 4096 + k.val
  omega

/-- Token `(b, s)` of the rows split back into `[2, 2048, 4096]` is row `2048·b + s`. -/
theorem unflat_read {α : Type} (x : S4096x4096.Idx → α) (h : S4096x4096.ShapeCasts S2x2048x4096) (b : Fin 2) (s : Fin 2048) (k : Fin 4096) :
    shapeCast S2x2048x4096 x h (ix3 b s k) = x (ix2 (Cert.Spec.rowOf b s) k) := by
  refine shapeCast_apply x h (ix3 b s k) _ ?_
  rw [Shape.rowMajor_val_three, Shape.rowMajor_val_two]
  show (2048 * b.val + s.val) * 4096 + k.val = (b.val * 2048 + s.val) * 4096 + k.val
  omega

/-- Rows `off … off + 11007` of the stacked weights. -/
theorem rows_read {α : Type} (off : Nat) (w : S22016x4096.Idx → α) (h : S22016x4096.Slices ![off, 0] S11008x4096)
    (n : Fin 11008) (k : Fin 4096) (t : Fin 22016) (ht : t.val = off + n.val) :
    extractStridedSlice S11008x4096 ![off, 0] w h (ix2 n k) = w (ix2 t k) := by
  refine extractStridedSlice_apply _ w h (ix2 n k) _ fun a => ?_
  match a with
  | ⟨0, _⟩ => exact ht
  | ⟨1, _⟩ => show k.val = 0 + k.val; omega

/-- A weight padded with 256 rows at the end: a row below 11008 is the weight's, a row from 11008 on the padding value. -/
theorem padRows_read {α : Type} (x : S11008x4096.Idx → α) (v : S_.Idx → α)
    (h : S11008x4096.Pads (![0, 0] : Fin 2 → Nat) ![256, 0] ![0, 0] S11264x4096) (hu : 0 < S_.numel)
    (n : Fin 11264) (k : Fin 4096) :
    pad S11264x4096 ![0, 0] ![256, 0] ![0, 0] x v h hu (ix2 n k)
      = if hn : n.val < 11008 then x (ix2 (⟨n.val, hn⟩ : Fin 11008) k) else v (Shape.Idx.first hu) := by
  by_cases hn : n.val < 11008
  · rw [dif_pos hn]
    refine pad_apply_of_inside _ _ _ x v h hu (ix2 n k) _ fun a => ?_
    match a with
    | ⟨0, _⟩ => show n.val = 0 + n.val * (0 + 1); omega
    | ⟨1, _⟩ => show k.val = 0 + k.val * (0 + 1); omega
  · rw [dif_neg hn]
    refine pad_apply_of_not_inside _ _ _ x v h hu (ix2 n k) (0 : Fin 2) ?_
    show ¬(0 ≤ n.val ∧ (n.val - 0) % (0 + 1) = 0 ∧ (n.val - 0) / (0 + 1) < 11008)
    omega

/-- A weight padded with 256 columns at the end. -/
theorem padCols_read {α : Type} (x : S4096x11008.Idx → α) (v : S_.Idx → α)
    (h : S4096x11008.Pads (![0, 0] : Fin 2 → Nat) ![0, 256] ![0, 0] S4096x11264) (hu : 0 < S_.numel)
    (j : Fin 4096) (i : Fin 11264) :
    pad S4096x11264 ![0, 0] ![0, 256] ![0, 0] x v h hu (ix2 j i)
      = if hi : i.val < 11008 then x (ix2 j (⟨i.val, hi⟩ : Fin 11008)) else v (Shape.Idx.first hu) := by
  by_cases hi : i.val < 11008
  · rw [dif_pos hi]
    refine pad_apply_of_inside _ _ _ x v h hu (ix2 j i) _ fun a => ?_
    match a with
    | ⟨0, _⟩ => show j.val = 0 + j.val * (0 + 1); omega
    | ⟨1, _⟩ => show i.val = 0 + i.val * (0 + 1); omega
  · rw [dif_neg hi]
    refine pad_apply_of_not_inside _ _ _ x v h hu (ix2 j i) (1 : Fin 2) ?_
    show ¬(0 ≤ i.val ∧ (i.val - 0) % (0 + 1) = 0 ∧ (i.val - 0) / (0 + 1) < 11008)
    omega

/-- The padding value: the integer `0` converted to a float is `0`. -/
theorem padVal (j : S_.Idx) : (sitofp .bf16 (constantI S_ 32 0#32 : IVec S_ 32) : FVec Ideal S_ .bf16) j = (0 : EReal) :=
  sitofp_zero

/-! ## The windows' arrays of the two kernels as the mathematics names them -/

section Composed
variable (m : (ℓ : Loc nD τ sig) → Buf (Elt Ideal) ℓ) (c : Dev nD)

/-- The tokens as rows, as the first kernel reads them. -/
theorem v1_eq : (Gen.V6 m c main_v1 : S4096x4096.Idx → EReal) = Cert.Spec.Xof (m ((c : Thread nD τ).loc main_arg0)) := by
  have e : Gen.V6 m c main_v1 = _ :=
    (Gen.V6_of m c main_v1 (by decide)).trans <| (Gen.V5_of m c main_v1 (by decide)).trans <|
    (Gen.V4_of m c main_v1 (by decide)).trans <| (Gen.V3_of m c main_v1 (by decide)).trans <|
    (Gen.V2_of m c main_v1 (by decide)).trans <| s0_v1 (Gen.V0 m c)
  refine e.trans ?_
  funext q
  obtain ⟨r, k, rfl⟩ : ∃ r k, q = ix2 r k := ⟨q 0, q 1, eq_ix2 q⟩
  exact flat_read _ _ r k

/-- The padded gate weights. -/
theorem v6_eq : (Gen.V6 m c main_v6 : S11264x4096.Idx → EReal) = Cert.Spec.Wgof (m ((c : Thread nD τ).loc main_arg1)) := by
  have e : Gen.V6 m c main_v6 = _ :=
    (Gen.V6_of m c main_v6 (by decide)).trans <| (Gen.V5_of m c main_v6 (by decide)).trans <|
    (Gen.V4_of m c main_v6 (by decide)).trans <| (Gen.V3_of m c main_v6 (by decide)).trans <|
    s1_v6 (Gen.V1 m c)
  have e3 : Gen.V1 m c main_v3 = _ := s0_v3 (Gen.V0 m c)
  have ec : Gen.V1 m c main_c = _ := s0_c (Gen.V0 m c)
  refine e.trans ?_
  rw [e3, ec]
  funext q
  obtain ⟨n, k, rfl⟩ : ∃ n k, q = ix2 n k := ⟨q 0, q 1, eq_ix2 q⟩
  rw [padRows_read]
  show _ = Cert.Spec.Wgofc _ n k
  unfold Cert.Spec.Wgofc
  by_cases hn : n.val < 11008
  · rw [dif_pos hn, dif_pos hn]
    exact rows_read 0 _ slices_S22016x4096_S11008x4096_0_0 ⟨n.val, hn⟩ k _ (Nat.zero_add _).symm
  · rw [dif_neg hn, dif_neg hn]
    exact padVal _

/-- The padded up weights. -/
theorem v7_eq : (Gen.V6 m c main_v7 : S11264x4096.Idx → EReal) = Cert.Spec.Wuof (m ((c : Thread nD τ).loc main_arg1)) := by
  have e : Gen.V6 m c main_v7 = _ :=
    (Gen.V6_of m c main_v7 (by decide)).trans <| (Gen.V5_of m c main_v7 (by decide)).trans <|
    s3_v7 (Gen.V3 m c)
  have e5 : Gen.V3 m c main_v5 = _ :=
    (Gen.V3_of m c main_v5 (by decide)).trans <| (Gen.V2_of m c main_v5 (by decide)).trans <| s0_v5 (Gen.V0 m c)
  have ec : Gen.V3 m c main_c_0 = _ := s2_c0 (Gen.V2 m c)
  refine e.trans ?_
  rw [e5, ec]
  funext q
  obtain ⟨n, k, rfl⟩ : ∃ n k, q = ix2 n k := ⟨q 0, q 1, eq_ix2 q⟩
  rw [padRows_read]
  show _ = Cert.Spec.Wuofc _ n k
  unfold Cert.Spec.Wuofc
  by_cases hn : n.val < 11008
  · rw [dif_pos hn, dif_pos hn]
    exact rows_read 11008 _ slices_S22016x4096_S11008x4096_11008_0 ⟨n.val, hn⟩ k _ rfl
  · rw [dif_neg hn, dif_neg hn]
    exact padVal _

/-- The padded down weights. -/
theorem v9_eq : (Gen.V6 m c main_v9 : S4096x11264.Idx → EReal) = Cert.Spec.Wdof (m ((c : Thread nD τ).loc main_arg2)) := by
  have e : Gen.V6 m c main_v9 = _ := s5_v9 (Gen.V5 m c)
  have e8 : Gen.V5 m c main_v8 = _ := s4_v8 (Gen.V4 m c)
  have ec : Gen.V5 m c main_c_1 = _ := s4_c1 (Gen.V4 m c)
  have ea : Gen.V4 m c main_arg2 = m ((c : Thread nD τ).loc main_arg2) :=
    (Gen.V4_of m c main_arg2 (by decide)).trans <| (Gen.V3_of m c main_arg2 (by decide)).trans <|
    (Gen.V2_of m c main_arg2 (by decide)).trans <| (Gen.V1_of m c main_arg2 (by decide)).trans rfl
  refine e.trans ?_
  rw [e8, ec, ea]
  funext q
  obtain ⟨j, i, rfl⟩ : ∃ j i, q = ix2 j i := ⟨q 0, q 1, eq_ix2 q⟩
  rw [padCols_read]
  show _ = Cert.Spec.Wdofc _ j i
  unfold Cert.Spec.Wdofc
  by_cases hi : i.val < 11008
  · rw [dif_pos hi, dif_pos hi]
    rfl
  · rw [dif_neg hi, dif_neg hi]
    exact padVal _

end Composed

/-- The result split back into `[2, 2048, 4096]`, after the last host operation. -/
theorem v12_eq (W : Valuation τ sig (Elt Ideal)) :
    (StableHlo.after (Gen.hostOps2 (F := Ideal)) W (Proc.devRef .tc main_v12) : S2x2048x4096.Idx → EReal)
      = Cert.Spec.outOf (W (Proc.devRef .tc main_v11)) := by
  refine (s9_v12 W).trans ?_
  funext q
  obtain ⟨b, s, k, rfl⟩ : ∃ b s k, q = ix3 b s k := ⟨q 0, q 1, q 2, eq_ix3 q⟩
  exact unflat_read _ _ b s k

end Cert.KernelIdeal.HostVal

end
-- ==== Proof.Bridge.lean ====
/-
  The tiled arrangement computes the same numbers as the direct one.

  Flattening the tokens `[2, 2048, 4096]` to rows `[4096, 4096]` puts token `(b, s)` at row `2048·b + s`, so reading
  row `2048·b + s` gives back token `(b, s)`. Padding the gate and up weights with zero rows, and the down weights with
  zero columns, from 11008 to 11264 adds 256 terms to the last sum; each of them is (a hidden value) times `0`, and
  `a * 0 = 0` holds for every extended real `a`, so the sum over 11264 features is the sum over the first 11008.
  Nothing here needs a finite entry: only `mul_zero`, `add_zero` and reindexing of finite sums are used.
-/
import proofs.«112804_j30425548325397_2_alg».proof.Proof.Spec
import Mathlib.Algebra.BigOperators.Fin

noncomputable section

namespace Cert.Spec

open Idealize.ShloMosaic Idealize.ShloMosaic.ValueIdx
open scoped BigOperators

/-- A sum over `m + n` terms whose last `n` terms vanish is the sum of the first `m`. -/
theorem sum_pad_zero {M : Type*} [AddCommMonoid M] (m n : ℕ) (f : Fin (m + n) → M)
    (h : ∀ i : Fin n, f (Fin.natAdd m i) = 0) :
    ∑ i : Fin (m + n), f i = ∑ i : Fin m, f (Fin.castAdd n i) := by
  rw [Fin.sum_univ_add, Finset.sum_eq_zero (fun i _ => h i), add_zero]

/-- Row `2048·b + s` of the flattened tokens is token `(b, s)`. -/
theorem Xofc_rowOf (x : SX.Idx → EReal) (b : Fin 2) (s : Fin 2048) (k : Fin 4096) :
    Xofc x (rowOf b s) k = x (ix3 b s k) := by
  unfold Xofc
  have hb : (⟨(rowOf b s).val / 2048, by have := (rowOf b s).isLt; omega⟩ : Fin 2) = b :=
    Fin.ext (by show (2048 * b.val + s.val) / 2048 = b.val; have := s.isLt; omega)
  have hs : (⟨(rowOf b s).val % 2048, by omega⟩ : Fin 2048) = s :=
    Fin.ext (by show (2048 * b.val + s.val) % 2048 = s.val; have := s.isLt; omega)
  rw [hb, hs]

/-- Below 11008 the padded gate weights are the stacked weights' rows `0 … 11007`. -/
theorem Wgofc_lt (w : SW.Idx → EReal) (n : Fin 11264) (k : Fin 4096) (h : n.val < 11008) :
    Wgofc w n k = w (ix2 (⟨n.val, by omega⟩ : Fin 22016) k) := by
  unfold Wgofc; rw [dif_pos h]

/-- Below 11008 the padded up weights are the stacked weights' rows `11008 … 22015`. -/
theorem Wuofc_lt (w : SW.Idx → EReal) (n : Fin 11264) (k : Fin 4096) (h : n.val < 11008) :
    Wuofc w n k = w (ix2 (⟨11008 + n.val, by omega⟩ : Fin 22016) k) := by
  unfold Wuofc; rw [dif_pos h]

/-- Below 11008 the padded down weights are the down weights. -/
theorem Wdofc_lt (d : SD.Idx → EReal) (j : Fin 4096) (i : Fin 11264) (h : i.val < 11008) :
    Wdofc d j i = d (ix2 j (⟨i.val, h⟩ : Fin 11008)) := by
  unfold Wdofc; rw [dif_pos h]

/-- From 11008 on the padded down weights vanish. -/
theorem Wdofc_ge (d : SD.Idx → EReal) (j : Fin 4096) (i : Fin 11264) (h : ¬ i.val < 11008) :
    Wdofc d j i = 0 := by
  unfold Wdofc; rw [dif_neg h]

/-- The hidden entry of row `2048·b + s` at a feature below 11008 is the reference's gated product for token `(b, s)`. -/
theorem H0c_rowOf (x : SX.Idx → EReal) (w : SW.Idx → EReal) (b : Fin 2) (s : Fin 2048) (i : Fin 11008) :
    H0c (Xof x) (Wgof w) (Wuof w) (rowOf b s) (Fin.castAdd 256 i) = silu (gateC x w b s i) * upC x w b s i := by
  have hi : (Fin.castAdd 256 i : Fin 11264).val < 11008 := i.isLt
  unfold H0c gateC upC
  have hg : ∀ k : Fin 4096, Xof x (ix2 (rowOf b s) k) * Wgof w (ix2 (Fin.castAdd 256 i : Fin 11264) k)
      = x (ix3 b s k) * w (ix2 (⟨i.val, by omega⟩ : Fin 22016) k) := fun k => by
    show Xofc x (rowOf b s) k * Wgofc w (Fin.castAdd 256 i) k = _
    rw [Xofc_rowOf, Wgofc_lt w _ k hi]; rfl
  have hu : ∀ k : Fin 4096, Xof x (ix2 (rowOf b s) k) * Wuof w (ix2 (Fin.castAdd 256 i : Fin 11264) k)
      = x (ix3 b s k) * w (ix2 (⟨11008 + i.val, by omega⟩ : Fin 22016) k) := fun k => by
    show Xofc x (rowOf b s) k * Wuofc w (Fin.castAdd 256 i) k = _
    rw [Xofc_rowOf, Wuofc_lt w _ k hi]; rfl
  rw [Finset.sum_congr rfl (fun k _ => hg k), Finset.sum_congr rfl (fun k _ => hu k)]

/-- The tiled down projection of row `2048·b + s` is the reference's result for token `(b, s)`. -/
theorem O1c_rowOf (x : SX.Idx → EReal) (w : SW.Idx → EReal) (d : SD.Idx → EReal)
    (b : Fin 2) (s : Fin 2048) (j : Fin 4096) :
    O1c (H0 (Xof x) (Wgof w) (Wuof w)) (Wdof d) (rowOf b s) j = Gc x w d b s j := by
  unfold O1c Gc
  refine (sum_pad_zero 11008 256
    (fun i : Fin 11264 => H0 (Xof x) (Wgof w) (Wuof w) (ix2 (rowOf b s) i) * Wdof d (ix2 j i)) ?_).trans ?_
  · intro i
    show _ * Wdofc d j (Fin.natAdd 11008 i) = 0
    rw [Wdofc_ge d j _ (by show ¬ (11008 + i.val < 11008); omega), mul_zero]
  · refine Finset.sum_congr rfl fun i _ => ?_
    show H0c (Xof x) (Wgof w) (Wuof w) (rowOf b s) (Fin.castAdd 256 i) * Wdofc d j (Fin.castAdd 256 i) = _
    rw [H0c_rowOf, Wdofc_lt d j _ i.isLt]
    rfl

/-- The tiled arrangement, split back into `[2, 2048, 4096]`, is the reference's result. -/
theorem bridge (x : SX.Idx → EReal) (w : SW.Idx → EReal) (d : SD.Idx → EReal) :
    outOf (O1 (H0 (Xof x) (Wgof w) (Wuof w)) (Wdof d)) = G x w d := by
  funext i
  exact O1c_rowOf x w d (i 0) (i 1) (i 2)

end Cert.Spec

end
-- ==== Proof.KI.ValueChain.lean ====
/-
  The two kernels' arrays chained to the program's result, at exact (extended real) values. When the first kernel
  has left the hidden array H = silu(X·Wgᵀ) · (X·Wuᵀ) of the flattened tokens and the padded gate and up weights, and
  the second the rows O = H·Wdᵀ against the padded down weights, the last host operation splits the rows back into
  [2, 2048, 4096]; the padded positions contribute nothing, so the result is the reference's
  (silu(x·w_gateᵀ) · (x·w_upᵀ))·dᵀ.
-/
import proofs.«112804_j30425548325397_2_alg».proof.Proof.KI.HostStages
import proofs.«112804_j30425548325397_2_alg».proof.Proof.Bridge

noncomputable section

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx

/-- With the hidden array in place of what the host left in its buffer, and the result rows in place of theirs, the
    program's last buffer holds the reference's result of the three arguments. -/
theorem value_chain (m : (ℓ : Loc nD τ sig) → Buf (Elt Ideal) ℓ) (c : Dev nD)
    (hidA : Buf (Elt Ideal) ((c : Thread nD τ).loc main_v10)) (resA : Buf (Elt Ideal) ((c : Thread nD τ).loc main_v11))
    (h0 : (hidA : S4096x11264.Idx → EReal) = Cert.Spec.H0 (Gen.V6 m c main_v1) (Gen.V6 m c main_v6) (Gen.V6 m c main_v7))
    (h1 : (resA : S4096x4096.Idx → EReal) = Cert.Spec.O1
      (Function.update (Gen.V6 m c) (Proc.devRef .tc main_v10) hidA (Proc.devRef .tc main_v10))
      (Function.update (Gen.V6 m c) (Proc.devRef .tc main_v10) hidA (Proc.devRef .tc main_v9))) :
    (StableHlo.after (Gen.hostOps2 (F := Ideal))
        (Function.update (Function.update (Gen.V6 m c) (Proc.devRef .tc main_v10) hidA) (Proc.devRef .tc main_v11) resA)
        (Proc.devRef .tc main_v12) : S2x2048x4096.Idx → EReal)
      = Cert.Spec.G (m ((c : Thread nD τ).loc main_arg0)) (m ((c : Thread nD τ).loc main_arg1)) (m ((c : Thread nD τ).loc main_arg2)) := by
  rw [v12_eq, Function.update_self, h1, Function.update_self,
    Function.update_of_ne (StableHlo.devRef_ne_of_ne (by decide)), h0, v1_eq, v6_eq, v7_eq, v9_eq]
  exact Cert.Spec.bridge _ _ _

end Cert.KernelIdeal.HostVal

end
-- ==== Proof.KI.KernelValue.lean ====
/-
  The kernel program's result as a function of its three arguments, on the extended reals: region 0 leaves the
  hidden array `H = silu(X·Wgᵀ) ⊙ (X·Wuᵀ)` of the flattened tokens and the zero-padded weights, region 1 leaves
  `H·Wdᵀ` over the padded hidden axis, and the last reshape splits the rows back into tokens; the padded positions
  contribute nothing, so this is the reference's function of the arguments.
-/
import proofs.«112804_j30425548325397_2_alg».proof.Proof.KI.Run
import proofs.«112804_j30425548325397_2_alg».proof.Proof.KI.Val0
import proofs.«112804_j30425548325397_2_alg».proof.Proof.KI.Val1
import proofs.«112804_j30425548325397_2_alg».proof.Proof.KI.ValueChain

noncomputable section

namespace Cert.KernelIdeal.Hand

open Idealize.ShloMosaic Idealize.ShloMosaic.TcCoe
open Idealize.SL Idealize.SL.Sem
open Cert.KernelIdeal Cert.KernelIdeal.Gen

/-- After the whole program the result buffer holds the reference's function of the three argument arrays. -/
theorem kernel_value (m : (ℓ : Loc nD τ sig) → Buf (Elt Ideal) ℓ) (c : Dev nD) :
    StableHlo.after (hostOps2 (F := Ideal)) (X8 m c) (Proc.devRef .tc main_v12)
      = Cert.Spec.G (m ((c : Thread nD τ).loc main_arg0)) (m ((c : Thread nD τ).loc main_arg1)) (m ((c : Thread nD τ).loc main_arg2)) :=
  Cert.KernelIdeal.HostVal.value_chain m c (hid m c) (res m c)
    (Cert.KernelIdeal.Val0.final0 (E0 m) c (dat0 (E0 m) c) (A_eq0 (E0 m) c) (fun t _ => after0_3 (E0 m) c t))
    (Cert.KernelIdeal.Val1.final1 (E1 m) c (dat1 (E1 m) c) (A_eq1 (E1 m) c) (fun t _ => after1_2 (E1 m) c t))

end Cert.KernelIdeal.Hand

end
-- ==== Proof.RefSide.lean ====
/-
  The reference computes `G`.

  The reference is a chain of array operations: the tokens against the stacked weights (a sum over the 4096 input
  features), the first 11008 output columns passed through `z ↦ z · (1 / (1 + e^(−z)))`, the last 11008 columns taken
  as they are, the two multiplied entry by entry, and the product against the down weights (a sum over the 11008 hidden
  features). Read at one entry `(b, s, j)`, every layout step is a change of index — column `n` of the first slice is
  column `n` of the product, column `n` of the second slice is column `11008 + n` — and every arithmetic step is the
  same step on that entry. The constant `1` is the word `0x3F800000`, and `1 / (1 + e^(−z))` is the logistic function by
  its definition over the extended reals, so the entry is `Gc x w d b s j` term by term: no algebraic law is used.
-/
import proofs.«112804_j30425548325397_2_alg».proof.Proof.Gen.ReferenceIdeal.Read
import proofs.«112804_j30425548325397_2_alg».proof.Proof.Spec

noncomputable section

namespace Cert.RefSide

open Cert.ReferenceIdeal Cert.ReferenceIdeal.Gen Cert.ReferenceIdeal.Read
open Idealize.ShloMosaic Idealize.ShloMosaic.ValueIdx
open scoped BigOperators

/-- The word `0x3F800000` is the number one. -/
theorem one_word : Ideal.ofBits .f32 0x3F800000#32 = 1 := IdealRules.sign_bit.ideal_onePat .f32

/-- The first product at token `(b, s)`, output column `n`: row `n` of the stacked weights against the token. -/
theorem v0_at (x : FVec Ideal S2x2048x4096 .f32) (w : FVec Ideal S22016x4096 .f32)
    (b : Fin 2) (s : Fin 2048) (n : Fin 22016) :
    val_main_v0 (F := Ideal) x w (ix3 b s n) = ∑ k : Fin 4096, x (ix3 b s k) * w (ix2 n k) := by
  rw [val_main_v0_apply]
  refine Finset.sum_congr rfl fun k _ => ?_
  have e1 : lidx_main_v0 (ix3 b s n) k = ix3 b s k :=
    funext fun a => Fin.ext (by match a with | ⟨0, _⟩ => rfl | ⟨1, _⟩ => rfl | ⟨2, _⟩ => rfl)
  have e2 : ridx_main_v0 (ix3 b s n) k = ix2 n k :=
    funext fun a => Fin.ext (by match a with | ⟨0, _⟩ => rfl | ⟨1, _⟩ => rfl)
  rw [e1, e2]

/-- The hidden value at token `(b, s)`, feature `n`: the gate projection through `silu`, times the up projection. -/
theorem v4_at (x : FVec Ideal S2x2048x4096 .f32) (w : FVec Ideal S22016x4096 .f32)
    (b : Fin 2) (s : Fin 2048) (n : Fin 11008) :
    val_main_v4 (F := Ideal) x w (ix3 b s n)
      = Cert.Spec.silu (Cert.Spec.gateC x w b s n) * Cert.Spec.upC x w b s n := by
  have e1 : idx_main_v1 (ix3 b s n) = ix3 b s (⟨n.val, by omega⟩ : Fin 22016) :=
    funext fun a => Fin.ext (by match a with | ⟨0, _⟩ => rfl | ⟨1, _⟩ => rfl | ⟨2, _⟩ => rfl)
  have e3 : idx_main_v3 (ix3 b s n) = ix3 b s (⟨11008 + n.val, by omega⟩ : Fin 22016) :=
    funext fun a => Fin.ext (by match a with | ⟨0, _⟩ => rfl | ⟨1, _⟩ => rfl | ⟨2, _⟩ => rfl)
  rw [val_main_v4_apply, val_main_v2_apply, val_main_call0_v5_apply, val_main_call0_v4_apply,
    val_main_call0_cst_0_apply, val_main_call0_v3_apply, val_main_call0_v2_apply, val_main_call0_cst_apply,
    val_main_call0_v1_apply, val_main_call0_v0_apply, val_main_v1_apply, val_main_v3_apply, e1, e3, v0_at, v0_at]
  simp only [Ideal.mulf_def, Ideal.hostDivf_def, Ideal.addf_def, Ideal.hostUnary_exp_def, Ideal.hostNegf_def,
    Ideal.negf_def, Ideal.ofBits_def, one_word]
  rfl

/-- The reference's result is `G` of its three arguments. -/
theorem ref_is_G (x : FVec Ideal S2x2048x4096 .f32) (w : FVec Ideal S22016x4096 .f32)
    (d : FVec Ideal S4096x11008 .f32) :
    val_main_v5 (F := Ideal) x w d = Cert.Spec.G x w d := by
  funext i
  obtain ⟨b, s, j, rfl⟩ : ∃ (b : Fin 2) (s : Fin 2048) (j : Fin 4096), i = ix3 b s j :=
    ⟨i 0, i 1, i 2, eq_ix3 i⟩
  rw [val_main_v5_apply]
  show _ = Cert.Spec.Gc x w d b s j
  unfold Cert.Spec.Gc
  refine Finset.sum_congr rfl fun n _ => ?_
  have e1 : lidx_main_v5 (ix3 b s j) n = ix3 b s n :=
    funext fun a => Fin.ext (by match a with | ⟨0, _⟩ => rfl | ⟨1, _⟩ => rfl | ⟨2, _⟩ => rfl)
  have e2 : ridx_main_v5 (ix3 b s j) n = ix2 j n :=
    funext fun a => Fin.ext (by match a with | ⟨0, _⟩ => rfl | ⟨1, _⟩ => rfl)
  rw [e1, e2, v4_at]

end Cert.RefSide

end
-- ==== Proof.lean ====
/-
  A SwiGLU feed-forward block, `(silu(x·Wgᵀ) ⊙ (x·Wuᵀ))·Wdᵀ`, computed by two tiled matrix-product kernels against
  the plain three-contraction reference.

  The first kernel walks a grid (row tile, hidden tile, contraction tile) and keeps two accumulators, the gate and
  the up projection of the row tile against the hidden tile's weights, restarted at the first contraction tile and
  turned into a block of the hidden array at the last; the second walks (row tile, output tile, hidden tile) with one
  accumulator. The weights are padded with zeros from 11008 to 11264 hidden features so that every tile is whole.
  On the extended reals a sum of products taken tile by tile from zero is the one sum (addition is associative and
  commutative, and nothing has to be finite), a padded hidden feature is `silu(0)·0 = 0` and meets a zero of the
  padded down weights, and `logistic z` is `1 / (1 + e^(−z))` on both sides: the two programs compute one function.
  Each program's frame (it terminates, faults nowhere, leaves its arguments alone) is proved by running the
  kernels' bodies symbolically at a generic grid point, the accumulators' contents carried between points as the
  region's invariant.
-/
import proofs.«112804_j30425548325397_2_alg».proof.Defs
import proofs.«112804_j30425548325397_2_alg».proof.Proof.Gen.Kernel
import proofs.«112804_j30425548325397_2_alg».proof.Proof.Gen.KernelIdeal
import proofs.«112804_j30425548325397_2_alg».proof.Proof.Gen.ReferenceIdeal
import proofs.«112804_j30425548325397_2_alg».proof.Proof.Gen.ReferenceIdeal.Run
import proofs.«112804_j30425548325397_2_alg».proof.Proof.Gen.ReferenceIdeal.Read
import proofs.«112804_j30425548325397_2_alg».proof.Proof.Gen.Pre_finite_inputs
import proofs.«112804_j30425548325397_2_alg».proof.Proof.K.Run
import proofs.«112804_j30425548325397_2_alg».proof.Proof.KI.Run
import proofs.«112804_j30425548325397_2_alg».proof.Proof.KI.KernelValue
import proofs.«112804_j30425548325397_2_alg».proof.Proof.RefSide

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
     (θ_run Cert.KernelIdeal.defs _ _).mono
       (fun _ h c => ⟨(h c).1.trans (Cert.KernelIdeal.Hand.kernel_value m c), (h c).2⟩)
       (Cert.KernelIdeal.Hand.run_result (F := Ideal) m ρ),
     (θ_run Cert.ReferenceIdeal.defs _ _).mono
       (fun _ h c => ⟨by rw [(h c).1, Cert.ReferenceIdeal.Read.val_main_v5_eq, Cert.RefSide.ref_is_G, (hagree c).1, (hagree c).2.1, (hagree c).2.2], (h c).2⟩)
       (Cert.ReferenceIdeal.Value.run (F := Ideal) m' ρ')⟩⟩

end Cert.Proof

end
